-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x10647x85 : Shape := ⟨3, ![64, 10647, 85]⟩
abbrev S_ : Shape := ⟨0, ![]⟩

class Facts : Prop where
  bcast_S_S64x10647x85 : S_.BroadcastsInDim S64x10647x85 (![] : Fin 0 → Fin S64x10647x85.rank)
  reducesTo_S64x10647x85_S_d0_1_2 : S64x10647x85.ReducesTo [0, 1, 2] S_
  h_S_ : 0 < S_.numel

variable [Facts]

def fn {F : FTy → Type} [FloatOps F] (main_arg0 : FVec F S64x10647x85 .f32) (main_arg1 : FVec F S64x10647x85 .f32) : IVec S_ 1 :=
  let main_v0 : FVec F S64x10647x85 .f32 := Host.absf main_arg0
  let main_cst : FVec F S_ .f32 := constant S_ .f32 0x7F800000#32
  let main_v1 : FVec F S64x10647x85 .f32 := broadcastInDim S64x10647x85 ![] bcast_S_S64x10647x85 main_cst
  let main_v2 : IVec S64x10647x85 1 := cmpf .olt main_v0 main_v1
  let main_c : IVec S_ 1 := constantI S_ 1 1#1
  let main_v3 : IVec S_ 1 := (fun x v => Host.reduce IntOp.andi x v reducesTo_S64x10647x85_S_d0_1_2 h_S_) main_v2 main_c
  let main_v4 : FVec F S64x10647x85 .f32 := Host.absf main_arg1
  let main_cst_0 : FVec F S_ .f32 := constant S_ .f32 0x7F800000#32
  let main_v5 : FVec F S64x10647x85 .f32 := broadcastInDim S64x10647x85 ![] bcast_S_S64x10647x85 main_cst_0
  let main_v6 : IVec S64x10647x85 1 := cmpf .olt main_v4 main_v5
  let main_c_1 : IVec S_ 1 := constantI S_ 1 1#1
  let main_v7 : IVec S_ 1 := (fun x v => Host.reduce IntOp.andi x v reducesTo_S64x10647x85_S_d0_1_2 h_S_) main_v6 main_c_1
  let main_v8 : IVec S_ 1 := andi main_v3 main_v7
  main_v8
-- ==== Kernel.lean ====
abbrev S64x10647x85 : Shape := ⟨3, ![64, 10647, 85]⟩
abbrev S42588x1360 : Shape := ⟨2, ![42588, 1360]⟩
abbrev S1360 : Shape := ⟨1, ![1360]⟩
abbrev S16 : Shape := ⟨1, ![16]⟩
abbrev S1360x1 : Shape := ⟨2, ![1360, 1]⟩
abbrev S_ : Shape := ⟨0, ![]⟩
abbrev S1x16 : Shape := ⟨2, ![1, 16]⟩
abbrev S1360x16 : Shape := ⟨2, ![1360, 16]⟩
abbrev S1360x32 : Shape := ⟨2, ![1360, 32]⟩
abbrev S3x512x16 : Shape := ⟨3, ![3, 512, 16]⟩
abbrev S512x1360 : Shape := ⟨2, ![512, 1360]⟩
abbrev S512x16 : Shape := ⟨2, ![512, 16]⟩
abbrev S1x512x16 : Shape := ⟨3, ![1, 512, 16]⟩

abbrev nBuf : Space → Nat
  | .hbm => 57
  | .vmem => 6
  | .smem => 0
  | _ => 0

abbrev bufTy : (tb : Table) → Fin (tcTables nBuf tb) → BufTy
  | .hbm, ⟨0, _⟩ => ⟨S64x10647x85, .f32⟩
  | .hbm, ⟨1, _⟩ => ⟨S64x10647x85, .f32⟩
  | .hbm, ⟨2, _⟩ => ⟨S42588x1360, .f32⟩
  | .hbm, ⟨3, _⟩ => ⟨S42588x1360, .f32⟩
  | .hbm, ⟨4, _⟩ => ⟨S1360, .i32⟩
  | .hbm, ⟨5, _⟩ => ⟨S16, .i32⟩
  | .hbm, ⟨6, _⟩ => ⟨S1360x1, .i32⟩
  | .hbm, ⟨7, _⟩ => ⟨S_, .i32⟩
  | .hbm, ⟨8, _⟩ => ⟨S_, .i32⟩
  | .hbm, ⟨9, _⟩ => ⟨S1360x1, .i32⟩
  | .hbm, ⟨10, _⟩ => ⟨S1360x1, .i32⟩
  | .hbm, ⟨11, _⟩ => ⟨S1360x1, .i32⟩
  | .hbm, ⟨12, _⟩ => ⟨S_, .i32⟩
  | .hbm, ⟨13, _⟩ => ⟨S1360x1, .i32⟩
  | .hbm, ⟨14, _⟩ => ⟨S1360x1, .i1⟩
  | .hbm, ⟨15, _⟩ => ⟨S1360x1, .i32⟩
  | .hbm, ⟨16, _⟩ => ⟨S1360x1, .i32⟩
  | .hbm, ⟨17, _⟩ => ⟨S_, .i32⟩
  | .hbm, ⟨18, _⟩ => ⟨S1360x1, .i32⟩
  | .hbm, ⟨19, _⟩ => ⟨S1360x1, .i1⟩
  | .hbm, ⟨20, _⟩ => ⟨S1360x1, .i1⟩
  | .hbm, ⟨21, _⟩ => ⟨S_, .i32⟩
  | .hbm, ⟨22, _⟩ => ⟨S1360x1, .i32⟩
  | .hbm, ⟨23, _⟩ => ⟨S1360x1, .i32⟩
  | .hbm, ⟨24, _⟩ => ⟨S1360x1, .i32⟩
  | .hbm, ⟨25, _⟩ => ⟨S1x16, .i32⟩
  | .hbm, ⟨26, _⟩ => ⟨S1360x16, .i32⟩
  | .hbm, ⟨27, _⟩ => ⟨S1360x16, .i32⟩
  | .hbm, ⟨28, _⟩ => ⟨S1360x16, .i1⟩
  | .hbm, ⟨29, _⟩ => ⟨S1360x16, .f32⟩
  | .hbm, ⟨30, _⟩ => ⟨S1360x1, .i32⟩
  | .hbm, ⟨31, _⟩ => ⟨S1x16, .i32⟩
  | .hbm, ⟨32, _⟩ => ⟨S_, .i32⟩
  | .hbm, ⟨33, _⟩ => ⟨S1x16, .i32⟩
  | .hbm, ⟨34, _⟩ => ⟨S1x16, .i32⟩
  | .hbm, ⟨35, _⟩ => ⟨S1360x16, .i32⟩
  | .hbm, ⟨36, _⟩ => ⟨S1360x16, .i32⟩
  | .hbm, ⟨37, _⟩ => ⟨S1360x16, .i1⟩
  | .hbm, ⟨38, _⟩ => ⟨S1360x16, .f32⟩
  | .hbm, ⟨39, _⟩ => ⟨S1360x32, .f32⟩
  | .hbm, ⟨40, _⟩ => ⟨S3x512x16, .f32⟩
  | .hbm, ⟨41, _⟩ => ⟨S1x512x16, .f32⟩
  | .hbm, ⟨42, _⟩ => ⟨S512x16, .f32⟩
  | .hbm, ⟨43, _⟩ => ⟨S_, .f32⟩
  | .hbm, ⟨44, _⟩ => ⟨S_, .f32⟩
  | .hbm, ⟨45, _⟩ => ⟨S1x512x16, .f32⟩
  | .hbm, ⟨46, _⟩ => ⟨S512x16, .f32⟩
  | .hbm, ⟨47, _⟩ => ⟨S_, .f32⟩
  | .hbm, ⟨48, _⟩ => ⟨S_, .f32⟩
  | .hbm, ⟨49, _⟩ => ⟨S1x512x16, .f32⟩
  | .hbm, ⟨50, _⟩ => ⟨S512x16, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S512x1360, .f32⟩
  | .local _ .vmem, ⟨1, _⟩ => ⟨S512x1360, .f32⟩
  | .local _ .vmem, ⟨2, _⟩ => ⟨S512x1360, .f32⟩
  | .local _ .vmem, ⟨3, _⟩ => ⟨S512x1360, .f32⟩
  | .local _ .vmem, ⟨4, _⟩ => ⟨S1360x32, .f32⟩
  | .local _ .vmem, ⟨5, _⟩ => ⟨S3x512x16, .f32⟩
  | _, _ => ⟨S64x10647x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![84], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1360 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1360 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1360x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S64x10647x85_S42588x1360 : S64x10647x85.ShapeCasts S42588x1360
  bcast_S1360_S1360x1_0 : S1360.BroadcastsInDim S1360x1 (![0] : Fin 1 → Fin S1360x1.rank)
  bcast_S_S1360x1 : S_.BroadcastsInDim S1360x1 (![] : Fin 0 → Fin S1360x1.rank)
  bcast_S16_S1x16_1 : S16.BroadcastsInDim S1x16 (![1] : Fin 1 → Fin S1x16.rank)
  bcast_S1360x1_S1360x16_0_1 : S1360x1.BroadcastsInDim S1360x16 (![0, 1] : Fin 2 → Fin S1360x16.rank)
  bcast_S1x16_S1360x16_0_1 : S1x16.BroadcastsInDim S1360x16 (![0, 1] : Fin 2 → Fin S1360x16.rank)
  bcast_S_S1x16 : S_.BroadcastsInDim S1x16 (![] : Fin 0 → Fin S1x16.rank)
  concatenates_S1360x16_S1360x16_S1360x32_d1 : Shape.Concatenates [S1360x16, S1360x16] S1360x32 1
  inb_S3x512x16_S3x512x16_0_0_0 : ∀ a, (![0, 0, 0] : Fin 3 → Nat) a + S3x512x16.size a ≤ S3x512x16.size a
  h_S3x512x16 : 0 < S3x512x16.numel
  inb_S512x1360_S512x1360_0_0 : ∀ a, (![0, 0] : Fin 2 → Nat) a + S512x1360.size a ≤ S512x1360.size a
  h_S512x1360 : 0 < S512x1360.numel
  shapeCasts_S512x1360_S512x1360 : S512x1360.ShapeCasts S512x1360
  inb_S1360x32_S1360x16_0_0 : ∀ a, (![0, 0] : Fin 2 → Nat) a + S1360x16.size a ≤ S1360x32.size a
  h_S1360x16 : 0 < S1360x16.numel
  shapeCasts_S1360x16_S1360x16 : S1360x16.ShapeCasts S1360x16
  inb_S1360x32_S1360x16_0_16 : ∀ a, (![0, 16] : Fin 2 → Nat) a + S1360x16.size a ≤ S1360x32.size a
  iota_S512x16_d0_w32 : S512x16.Iotas .tc 32 [0]
  inb_S3x512x16_S1x512x16_0_0_0 : ∀ a, (![0, 0, 0] : Fin 3 → Nat) a + S1x512x16.size a ≤ S3x512x16.size a
  h_S1x512x16 : 0 < S1x512x16.numel
  shapeCasts_S1x512x16_S512x16 : S1x512x16.ShapeCasts S512x16
  shapeCasts_S512x16_S1x512x16 : S512x16.ShapeCasts S1x512x16
  inb_S3x512x16_S1x512x16_1_0_0 : ∀ a, (![1, 0, 0] : Fin 3 → Nat) a + S1x512x16.size a ≤ S3x512x16.size a
  inb_S3x512x16_S1x512x16_2_0_0 : ∀ a, (![2, 0, 0] : Fin 3 → Nat) a + S1x512x16.size a ≤ S3x512x16.size a
  slices_S3x512x16_S1x512x16_0_0_0 : S3x512x16.Slices ![0, 0, 0] S1x512x16
  reducesTo_S512x16_S_d0_1 : S512x16.ReducesTo [0, 1] S_
  h_S_ : 0 < S_.numel
  slices_S3x512x16_S1x512x16_1_0_0 : S3x512x16.Slices ![1, 0, 0] S1x512x16
  slices_S3x512x16_S1x512x16_2_0_0 : S3x512x16.Slices ![2, 0, 0] S1x512x16
  dot_S512x1360_S1360x16_S512x16_1_0_0_1_n_n_wf : DotDims.WF S512x1360 S1360x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x1360.size a < S42588x1360.size a
  hwx0_0 : ∀ i : grid0.Coords, EltTy.bits .f32 = 32 ∨ (Rect.unit (s := S42588x1360) (fun a => cc0_transform_0 i a * S512x1360.size a) (fun a => (Pipeline.Clip.of (cc0_transform_0 i a) (S512x1360.size a) (S42588x1360.size a)).extent (S512x1360.size a)) fun a => Pipeline.Clip.inb (Pipeline.Clip.ok_of (hstart0_0 i a))).WholeWords (EltTy.packing .f32)
  hwxs0_0 : ∀ i : grid0.Coords, EltTy.bits .f32 = 32 ∨ (Rect.unit (s := S512x1360) (fun _ => 0) (fun a => (Pipeline.Clip.of (cc0_transform_0 i a) (S512x1360.size a) (S42588x1360.size a)).extent (S512x1360.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x1360.size a < S42588x1360.size a
  hwx0_1 : ∀ i : grid0.Coords, EltTy.bits .f32 = 32 ∨ (Rect.unit (s := S42588x1360) (fun a => cc0_transform_1 i a * S512x1360.size a) (fun a => (Pipeline.Clip.of (cc0_transform_1 i a) (S512x1360.size a) (S42588x1360.size a)).extent (S512x1360.size a)) fun a => Pipeline.Clip.inb (Pipeline.Clip.ok_of (hstart0_1 i a))).WholeWords (EltTy.packing .f32)
  hwxs0_1 : ∀ i : grid0.Coords, EltTy.bits .f32 = 32 ∨ (Rect.unit (s := S512x1360) (fun _ => 0) (fun a => (Pipeline.Clip.of (cc0_transform_1 i a) (S512x1360.size a) (S42588x1360.size a)).extent (S512x1360.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1360x32.size a ≤ S1360x32.size a
  hwx0_2 : ∀ i : grid0.Coords, EltTy.bits .f32 = 32 ∨ (Rect.block (s := S1360x32) S1360x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x512x16.size a ≤ S3x512x16.size a
  hwx0_3 : ∀ i : grid0.Coords, EltTy.bits .f32 = 32 ∨ (Rect.block (s := S3x512x16) S3x512x16.size (cc0_transform_3 i) (hinb0_3 i)).WholeWords (EltTy.packing .f32)

variable [Facts₀]

def dot_S512x1360_S1360x16_S512x16_1_0_0_1_n_n : DotDims S512x1360 S1360x16 S512x16 where
  lhsContracting := [1]
  rhsContracting := [0]
  lhsNonContracting := [0]
  rhsNonContracting := [1]
  lhsBatch := []
  rhsBatch := []
  wf := dot_S512x1360_S1360x16_S512x16_1_0_0_1_n_n_wf

abbrev win0_0 : Pipeline.Window sig grid0 :=
  Pipeline.Window.ofSpecClip (Memref.whole main_v0) S512x1360.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S512x1360.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v19) S1360x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S3x512x16.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x10647x85 : Shape := ⟨3, ![64, 10647, 85]⟩
abbrev S64x10647x1 : Shape := ⟨3, ![64, 10647, 1]⟩
abbrev S64x10647 : Shape := ⟨2, ![64, 10647]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S64x10647x85, .f32⟩
  | .hbm, ⟨1, _⟩ => ⟨S64x10647x85, .f32⟩
  | .hbm, ⟨2, _⟩ => ⟨S64x10647x1, .f32⟩
  | .hbm, ⟨3, _⟩ => ⟨S64x10647, .f32⟩
  | .hbm, ⟨4, _⟩ => ⟨S_, .f32⟩
  | .hbm, ⟨5, _⟩ => ⟨S64x10647, .f32⟩
  | .hbm, ⟨6, _⟩ => ⟨S64x10647, .i1⟩
  | .hbm, ⟨7, _⟩ => ⟨S64x10647, .f32⟩
  | .hbm, ⟨8, _⟩ => ⟨S64x10647x85, .f32⟩
  | .hbm, ⟨9, _⟩ => ⟨S64x10647x85, .f32⟩
  | .hbm, ⟨10, _⟩ => ⟨S64x10647x85, .f32⟩
  | .hbm, ⟨11, _⟩ => ⟨S_, .f32⟩
  | .hbm, ⟨12, _⟩ => ⟨S64x10647x85, .f32⟩
  | .hbm, ⟨13, _⟩ => ⟨S64x10647x85, .f32⟩
  | .hbm, ⟨14, _⟩ => ⟨S64x10647x85, .f32⟩
  | .hbm, ⟨15, _⟩ => ⟨S64x10647x1, .f32⟩
  | .hbm, ⟨16, _⟩ => ⟨S64x10647x85, .f32⟩
  | .hbm, ⟨17, _⟩ => ⟨S64x10647x85, .f32⟩
  | .hbm, ⟨18, _⟩ => ⟨S64x10647x1, .f32⟩
  | .hbm, ⟨19, _⟩ => ⟨S64x10647, .f32⟩
  | .hbm, ⟨20, _⟩ => ⟨S64x10647, .f32⟩
  | .hbm, ⟨21, _⟩ => ⟨S_, .f32⟩
  | .hbm, ⟨22, _⟩ => ⟨S64x10647, .f32⟩
  | .hbm, ⟨23, _⟩ => ⟨S64x10647, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S64x10647x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  slices_S64x10647x85_S64x10647x1_0_0_0 : S64x10647x85.Slices ![0, 0, 0] S64x10647x1
  shapeCasts_S64x10647x1_S64x10647 : S64x10647x1.ShapeCasts S64x10647
  bcast_S_S64x10647 : S_.BroadcastsInDim S64x10647 (![] : Fin 0 → Fin S64x10647.rank)
  bcast_S_S64x10647x85 : S_.BroadcastsInDim S64x10647x85 (![] : Fin 0 → Fin S64x10647x85.rank)
  bcast_S64x10647_S64x10647x1_0_1 : S64x10647.BroadcastsInDim S64x10647x1 (![0, 1] : Fin 2 → Fin S64x10647x1.rank)
  bcast_S64x10647x1_S64x10647x85_0_1_2 : S64x10647x1.BroadcastsInDim S64x10647x85 (![0, 1, 2] : Fin 3 → Fin S64x10647x85.rank)
  reducesTo_S64x10647x85_S_d0_1_2 : S64x10647x85.ReducesTo [0, 1, 2] S_
  h_S_ : 0 < S_.numel
  reducesTo_S64x10647_S_d0_1 : S64x10647.ReducesTo [0, 1] S_

variable [Facts₀]

class Facts : Prop extends Facts₀ where

variable [Facts]
-- ==== Proof.FrameBitsRun.lean ====
import proofs.«125290_g9715216024200_cont_9to1_m_804_10_alg».proof.Proof.Gen.Kernel.Launch
import proofs.«125290_g9715216024200_cont_9to1_m_804_10_alg».proof.Proof.Gen.Kernel.Skeleton
import proofs.«125290_g9715216024200_cont_9to1_m_804_10_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch condition

The body's one conditional tests whether the grid coordinate is zero: the coordinate as a 32-bit word is compared
with zero, the bit widened to a word and compared with zero again. -/

/-- The condition of the body's conditional, from the grid coordinates. -/
abbrev cond0_0 (i : grid0.Coords) : Prop :=
  Scalar.cmpi .ne (Scalar.extui (Scalar.cmpi .eq (BitVec.ofNat 32 (i 0).val) 0#32) : BitVec 32) 0#32 = 1#1

/-- It holds at the first point only: decided over the grid's 84 points. -/
theorem hcond0_0 : ∀ t : Fin cfg0.N, cond0_0 (grid0.coords t) ↔ t.val = 0 :=
  (by decide +kernel : ∀ t : Fin grid0.N, cond0_0 (grid0.coords t) ↔ t.val = 0)

/-! ## The body on arbitrary whole staging memrefs

The frame claim reads nothing of what the buffers hold, and the body's control flow depends on the grid coordinate
alone: so the body's triple is stated from the four staging memrefs held whole at ANY contents to the same four held
whole at some contents. -/

set_option maxHeartbeats 1000000 in
/-- The body at a point whose coordinate is not zero (the zero-fill of the output's buffer is skipped): it loads the
    three inputs' buffers and the output's, and stores into the output's buffer through three rectangles. -/
theorem bodyRun_rest (c : Dev nD) (i : grid0.Coords)
    (arg1 : Memref sig .tc .vmem S512x1360 .f32) (harg1 : arg1.IsWhole) (arg2 : Memref sig .tc .vmem S512x1360 .f32) (harg2 : arg2.IsWhole)
    (arg3 : Memref sig .tc .vmem S1360x32 .f32) (harg3 : arg3.IsWhole) (arg4 : Memref sig .tc .vmem S3x512x16 .f32) (harg4 : arg4.IsWhole)
    (hc0 : ¬cond0_0 i) :
      ∀ (E : Set ℕ) (K : PUnit → sProp 𝕄),
        iprop((∃ d, owns (c : Thread nD τ) arg1 fullShare d) ∗ (∃ d, owns (c : Thread nD τ) arg2 fullShare d)
            ∗ (∃ d, owns (c : Thread nD τ) arg3 fullShare d) ∗ (∃ d, owns (c : Thread nD τ) arg4 fullShare d)
            ∗ (iprop((∃ d, owns (c : Thread nD τ) arg1 fullShare d) ∗ (∃ d, owns (c : Thread nD τ) arg2 fullShare d)
                ∗ (∃ d, owns (c : Thread nD τ) arg3 fullShare d) ∗ (∃ d, owns (c : Thread nD τ) arg4 fullShare d)) -∗ K ⟨⟩))
          ⊢ wp frame (wpE (defs₀ (F := F)) Variants.none c none) E (cc0__body i arg1 harg1 arg2 harg2 arg3 harg3 arg4 harg4) K := by
    intro E K
    simp only [cc0__body_eq_skeleton]; unfold cc0__body_skel
    simp only [k0_part1_eq_skeleton]; unfold k0_part1_skel
    unfold owns
    iintro ⟨⟨%d1, %f1, -, H1⟩, ⟨%d2, %f2, -, H2⟩, ⟨%d3, %f3, -, H3⟩, ⟨%d4, %f4, -, H4⟩, Hk⟩
    sl_exec (disch := first | exact hc0)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    iexists _, _; isplitr; swap; · iexact H4
    ipureintro; rfl

set_option maxHeartbeats 1000000 in
/-- The body at the point whose coordinate is zero: the output's buffer is first loaded and overwritten whole with
    zeros, then the body goes on as at every other point. -/
theorem bodyRun_first (c : Dev nD) (i : grid0.Coords)
    (arg1 : Memref sig .tc .vmem S512x1360 .f32) (harg1 : arg1.IsWhole) (arg2 : Memref sig .tc .vmem S512x1360 .f32) (harg2 : arg2.IsWhole)
    (arg3 : Memref sig .tc .vmem S1360x32 .f32) (harg3 : arg3.IsWhole) (arg4 : Memref sig .tc .vmem S3x512x16 .f32) (harg4 : arg4.IsWhole)
    (hc0 : cond0_0 i) :
      ∀ (E : Set ℕ) (K : PUnit → sProp 𝕄),
        iprop((∃ d, owns (c : Thread nD τ) arg1 fullShare d) ∗ (∃ d, owns (c : Thread nD τ) arg2 fullShare d)
            ∗ (∃ d, owns (c : Thread nD τ) arg3 fullShare d) ∗ (∃ d, owns (c : Thread nD τ) arg4 fullShare d)
            ∗ (iprop((∃ d, owns (c : Thread nD τ) arg1 fullShare d) ∗ (∃ d, owns (c : Thread nD τ) arg2 fullShare d)
                ∗ (∃ d, owns (c : Thread nD τ) arg3 fullShare d) ∗ (∃ d, owns (c : Thread nD τ) arg4 fullShare d)) -∗ K ⟨⟩))
          ⊢ wp frame (wpE (defs₀ (F := F)) Variants.none c none) E (cc0__body i arg1 harg1 arg2 harg2 arg3 harg3 arg4 harg4) K := by
    intro E K
    simp only [cc0__body_eq_skeleton]; unfold cc0__body_skel
    simp only [k0_part1_eq_skeleton]; unfold k0_part1_skel
    unfold owns
    iintro ⟨⟨%d1, %f1, -, H1⟩, ⟨%d2, %f2, -, H2⟩, ⟨%d3, %f3, -, H3⟩, ⟨%d4, %f4, -, H4⟩, Hk⟩
    sl_exec (disch := first | exact hc0)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    iexists _, _; isplitr; swap; · iexact H4
    ipureintro; rfl

end Cert.Kernel.Hand

end
-- ==== Proof.FrameBits.lean ====
import proofs.«125290_g9715216024200_cont_9to1_m_804_10_alg».proof.Proof.Gen.Kernel.Frame
import proofs.«125290_g9715216024200_cont_9to1_m_804_10_alg».proof.Proof.FrameBitsRun

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The staging memrefs at a point -/

/-- Each window's current staging memref at point `t`, as the pipeline passes it to the body, and its wholeness. -/
abbrev ms0_0 (t : Fin cfg0.N) : Memref sig .tc .vmem S512x1360 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1360 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1360x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x512x16 .f32 := win0_3.stage (cfg0.slots t 3)
abbrev hs0_3 (t : Fin cfg0.N) : (ms0_3 t).IsWhole := hstage0_3 ((cfg0.slots t 3).cast nbuf0_3)

/-! ## The pipeline's proof data

The frame claim speaks of the two argument arrays only, and neither is an array of the pipeline (the pipeline's inputs
are results of host operations before the region): so nothing of what any window's buffer holds is named. -/

/-- Every window is forgotten: each staging buffer is handed to the body at any contents and taken back at any. -/
def forgets0 : Fin 4 → Bool := fun _ => true

/-- The proof data of the one pipeline on core `c`: the arrays as the region finds them; what the body leaves in each
    window's buffer unnamed; the invariant the core's scoped buffers outside the pipeline and its pseudo-random register;
    nothing owed; full shares. -/
def dats (_ : Fin 1) (c : Dev nD) : Dat τ (Elt F) Unit ℕ (UR sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! ## The body obligation, at a generic point -/

/-- What the body is called with at point `t`: the invariant, what the core owes, and the four current staging
    buffers, each whole at some contents; -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d))

/-- and what it returns: the same. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d))

set_option maxHeartbeats 1000000 in
/-- The body at any point: the closed form of the condition says which of the two runs applies; the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  by_cases h0 : t.val = 0
  · iintro ⟨HΦ, Ho, H0, H1, H2, H3⟩
    iapply ((bodyRun_first c (grid0.coords t) _ _ _ _ _ _ _ _ ((hcond0_0 t).mpr h0)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · iintro ⟨HΦ, Ho, H0, H1, H2, H3⟩
    iapply ((bodyRun_rest c (grid0.coords t) _ _ _ _ _ _ _ _ (fun h => h0 ((hcond0_0 t).mp h))) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point, every window forgotten. -/
theorem body_obligation (c : Dev nD) : BodyObligation (dats (F := F) m 0 c) (defs₀ (F := F)) Variants.none () Set.univ forgets0 := fun t => by
  rw [bigSep_W0, bigSep_W0]
  exact sound_body m c t

/-! ## The run and the frame -/

/-- The buffers the host lines after the region may write: any but the two argument arrays. -/
def T : Finset (Ref sig .tc) := Finset.univ.filter fun b => b ≠ main_arg0 ∧ b ≠ main_arg1

theorem main_arg0_not_mem_T : main_arg0 ∉ T := fun h => (Finset.mem_filter.mp h).2.1 rfl
theorem main_arg1_not_mem_T : main_arg1 ∉ T := fun h => (Finset.mem_filter.mp h).2.2 rfl

/-- Each host line after the region writes its own result buffer only, and that is neither argument array. -/
theorem sfx_writes_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl
  all_goals
    intro b hb
    simp only [StableHlo.nullary_writes, StableHlo.unary_writes, StableHlo.binary_writes, StableHlo.ternary_writes,
      StableHlo.quaternary_writes, StableHlo.reshape_writes, StableHlo.binaryIndexed_writes, Finset.mem_singleton] at hb
    obtain rfl := Proc.devRef_injective (τ := τ) _ hb
    exact Finset.mem_filter.mpr ⟨Finset.mem_univ _, by decide, by decide⟩

set_option backward.isDefEq.respectTransparency.types false in
/-- At the compiled mesh, for any values, from any memory with zero counters: every weakly fair execution of @main on
    the TensorCores terminates, and every final state has every unscoped buffer that is no array of the pipeline and
    that no host line after the region writes at its region-entry contents. -/
theorem run_main : θ_run defs (onTc (τ := τ) (main (F := F))) (s₀ m ρ)
    (Pipeline.RDat.FramePostR (cfgs 0) (fun c => (dats m 0 c).toRForget forgets0) T (fun c b => V0 m c (Proc.devRef .tc b))) :=
  Pipeline.RDat.θ_run_frame_around_T cfgs (0 : Fin 1) launch0 defs₀ Variants.none (fun c => (dats m 0 c).toRForget forgets0) T m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps)
    (hT := sfx_writes_T) (hmain := hmain m Variants.none) (hA := A_eq m) (hΦ := fun _ _ => rfl)

/-- THE FRAME: every weakly fair execution of @main terminates, and the two argument arrays end as launched — neither is
    an array of the pipeline, no host line before the region writes either, and none after it does. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), main_arg0_not_mem_T⟩)).trans (V_main_arg0 m c),
     ((h c).2 main_arg1 (Finset.mem_sdiff.mpr ⟨Pipeline.mem_restRefs_of main_arg1 (by decide) (by decide), main_arg1_not_mem_T⟩)).trans (V_main_arg1 m c)⟩)
    (run_main m ρ)

end Cert.Kernel.Hand

end
-- ==== Proof.FrameIdealRun.lean ====
import proofs.«125290_g9715216024200_cont_9to1_m_804_10_alg».proof.Proof.Gen.KernelIdeal.Launch
import proofs.«125290_g9715216024200_cont_9to1_m_804_10_alg».proof.Proof.Gen.KernelIdeal.Skeleton
import proofs.«125290_g9715216024200_cont_9to1_m_804_10_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch condition

The body's one conditional tests whether the grid coordinate is zero: the coordinate as a 32-bit word is compared
with zero, the bit widened to a word and compared with zero again. -/

/-- The condition of the body's conditional, from the grid coordinates. -/
abbrev cond0_0 (i : grid0.Coords) : Prop :=
  Scalar.cmpi .ne (Scalar.extui (Scalar.cmpi .eq (BitVec.ofNat 32 (i 0).val) 0#32) : BitVec 32) 0#32 = 1#1

/-- It holds at the first point only: decided over the grid's 84 points. -/
theorem hcond0_0 : ∀ t : Fin cfg0.N, cond0_0 (grid0.coords t) ↔ t.val = 0 :=
  (by decide +kernel : ∀ t : Fin grid0.N, cond0_0 (grid0.coords t) ↔ t.val = 0)

/-! ## The body on arbitrary whole staging memrefs

The frame claim reads nothing of what the buffers hold, and the body's control flow depends on the grid coordinate
alone: so the body's triple is stated from the four staging memrefs held whole at ANY contents to the same four held
whole at some contents. -/

set_option maxHeartbeats 1000000 in
/-- The body at a point whose coordinate is not zero (the zero-fill of the output's buffer is skipped): it loads the
    three inputs' buffers and the output's, and stores into the output's buffer through three rectangles. -/
theorem bodyRun_rest (c : Dev nD) (i : grid0.Coords)
    (arg1 : Memref sig .tc .vmem S512x1360 .f32) (harg1 : arg1.IsWhole) (arg2 : Memref sig .tc .vmem S512x1360 .f32) (harg2 : arg2.IsWhole)
    (arg3 : Memref sig .tc .vmem S1360x32 .f32) (harg3 : arg3.IsWhole) (arg4 : Memref sig .tc .vmem S3x512x16 .f32) (harg4 : arg4.IsWhole)
    (hc0 : ¬cond0_0 i) :
      ∀ (E : Set ℕ) (K : PUnit → sProp 𝕄),
        iprop((∃ d, owns (c : Thread nD τ) arg1 fullShare d) ∗ (∃ d, owns (c : Thread nD τ) arg2 fullShare d)
            ∗ (∃ d, owns (c : Thread nD τ) arg3 fullShare d) ∗ (∃ d, owns (c : Thread nD τ) arg4 fullShare d)
            ∗ (iprop((∃ d, owns (c : Thread nD τ) arg1 fullShare d) ∗ (∃ d, owns (c : Thread nD τ) arg2 fullShare d)
                ∗ (∃ d, owns (c : Thread nD τ) arg3 fullShare d) ∗ (∃ d, owns (c : Thread nD τ) arg4 fullShare d)) -∗ K ⟨⟩))
          ⊢ wp frame (wpE (defs₀ (F := F)) Variants.none c none) E (cc0__body i arg1 harg1 arg2 harg2 arg3 harg3 arg4 harg4) K := by
    intro E K
    simp only [cc0__body_eq_skeleton]; unfold cc0__body_skel
    simp only [k0_part1_eq_skeleton]; unfold k0_part1_skel
    unfold owns
    iintro ⟨⟨%d1, %f1, -, H1⟩, ⟨%d2, %f2, -, H2⟩, ⟨%d3, %f3, -, H3⟩, ⟨%d4, %f4, -, H4⟩, Hk⟩
    sl_exec (disch := first | exact hc0)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    iexists _, _; isplitr; swap; · iexact H4
    ipureintro; rfl

set_option maxHeartbeats 1000000 in
/-- The body at the point whose coordinate is zero: the output's buffer is first loaded and overwritten whole with
    zeros, then the body goes on as at every other point. -/
theorem bodyRun_first (c : Dev nD) (i : grid0.Coords)
    (arg1 : Memref sig .tc .vmem S512x1360 .f32) (harg1 : arg1.IsWhole) (arg2 : Memref sig .tc .vmem S512x1360 .f32) (harg2 : arg2.IsWhole)
    (arg3 : Memref sig .tc .vmem S1360x32 .f32) (harg3 : arg3.IsWhole) (arg4 : Memref sig .tc .vmem S3x512x16 .f32) (harg4 : arg4.IsWhole)
    (hc0 : cond0_0 i) :
      ∀ (E : Set ℕ) (K : PUnit → sProp 𝕄),
        iprop((∃ d, owns (c : Thread nD τ) arg1 fullShare d) ∗ (∃ d, owns (c : Thread nD τ) arg2 fullShare d)
            ∗ (∃ d, owns (c : Thread nD τ) arg3 fullShare d) ∗ (∃ d, owns (c : Thread nD τ) arg4 fullShare d)
            ∗ (iprop((∃ d, owns (c : Thread nD τ) arg1 fullShare d) ∗ (∃ d, owns (c : Thread nD τ) arg2 fullShare d)
                ∗ (∃ d, owns (c : Thread nD τ) arg3 fullShare d) ∗ (∃ d, owns (c : Thread nD τ) arg4 fullShare d)) -∗ K ⟨⟩))
          ⊢ wp frame (wpE (defs₀ (F := F)) Variants.none c none) E (cc0__body i arg1 harg1 arg2 harg2 arg3 harg3 arg4 harg4) K := by
    intro E K
    simp only [cc0__body_eq_skeleton]; unfold cc0__body_skel
    simp only [k0_part1_eq_skeleton]; unfold k0_part1_skel
    unfold owns
    iintro ⟨⟨%d1, %f1, -, H1⟩, ⟨%d2, %f2, -, H2⟩, ⟨%d3, %f3, -, H3⟩, ⟨%d4, %f4, -, H4⟩, Hk⟩
    sl_exec (disch := first | exact hc0)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    iexists _, _; isplitr; swap; · iexact H4
    ipureintro; rfl

end Cert.KernelIdeal.Hand

end
-- ==== Proof.FrameIdeal.lean ====
import proofs.«125290_g9715216024200_cont_9to1_m_804_10_alg».proof.Proof.Gen.KernelIdeal.Frame
import proofs.«125290_g9715216024200_cont_9to1_m_804_10_alg».proof.Proof.FrameIdealRun

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The staging memrefs at a point -/

/-- Each window's current staging memref at point `t`, as the pipeline passes it to the body, and its wholeness. -/
abbrev ms0_0 (t : Fin cfg0.N) : Memref sig .tc .vmem S512x1360 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1360 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1360x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x512x16 .f32 := win0_3.stage (cfg0.slots t 3)
abbrev hs0_3 (t : Fin cfg0.N) : (ms0_3 t).IsWhole := hstage0_3 ((cfg0.slots t 3).cast nbuf0_3)

/-! ## The pipeline's proof data

The frame claim speaks of the two argument arrays only, and neither is an array of the pipeline (the pipeline's inputs
are results of host operations before the region): so nothing of what any window's buffer holds is named. -/

/-- Every window is forgotten: each staging buffer is handed to the body at any contents and taken back at any. -/
def forgets0 : Fin 4 → Bool := fun _ => true

/-- The proof data of the one pipeline on core `c`: the arrays as the region finds them; what the body leaves in each
    window's buffer unnamed; the invariant the core's scoped buffers outside the pipeline and its pseudo-random register;
    nothing owed; full shares. -/
def dats (_ : Fin 1) (c : Dev nD) : Dat τ (Elt F) Unit ℕ (UR sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! ## The body obligation, at a generic point -/

/-- What the body is called with at point `t`: the invariant, what the core owes, and the four current staging
    buffers, each whole at some contents; -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d))

/-- and what it returns: the same. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d))

set_option maxHeartbeats 1000000 in
/-- The body at any point: the closed form of the condition says which of the two runs applies; the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  by_cases h0 : t.val = 0
  · iintro ⟨HΦ, Ho, H0, H1, H2, H3⟩
    iapply ((bodyRun_first c (grid0.coords t) _ _ _ _ _ _ _ _ ((hcond0_0 t).mpr h0)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · iintro ⟨HΦ, Ho, H0, H1, H2, H3⟩
    iapply ((bodyRun_rest c (grid0.coords t) _ _ _ _ _ _ _ _ (fun h => h0 ((hcond0_0 t).mp h))) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point, every window forgotten. -/
theorem body_obligation (c : Dev nD) : BodyObligation (dats (F := F) m 0 c) (defs₀ (F := F)) Variants.none () Set.univ forgets0 := fun t => by
  rw [bigSep_W0, bigSep_W0]
  exact sound_body m c t

/-! ## The run and the frame -/

/-- The buffers the host lines after the region may write: any but the two argument arrays. -/
def T : Finset (Ref sig .tc) := Finset.univ.filter fun b => b ≠ main_arg0 ∧ b ≠ main_arg1

theorem main_arg0_not_mem_T : main_arg0 ∉ T := fun h => (Finset.mem_filter.mp h).2.1 rfl
theorem main_arg1_not_mem_T : main_arg1 ∉ T := fun h => (Finset.mem_filter.mp h).2.2 rfl

/-- Each host line after the region writes its own result buffer only, and that is neither argument array. -/
theorem sfx_writes_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl
  all_goals
    intro b hb
    simp only [StableHlo.nullary_writes, StableHlo.unary_writes, StableHlo.binary_writes, StableHlo.ternary_writes,
      StableHlo.quaternary_writes, StableHlo.reshape_writes, StableHlo.binaryIndexed_writes, Finset.mem_singleton] at hb
    obtain rfl := Proc.devRef_injective (τ := τ) _ hb
    exact Finset.mem_filter.mpr ⟨Finset.mem_univ _, by decide, by decide⟩

set_option backward.isDefEq.respectTransparency.types false in
/-- At the compiled mesh, for any values, from any memory with zero counters: every weakly fair execution of @main on
    the TensorCores terminates, and every final state has every unscoped buffer that is no array of the pipeline and
    that no host line after the region writes at its region-entry contents. -/
theorem run_main : θ_run defs (onTc (τ := τ) (main (F := F))) (s₀ m ρ)
    (Pipeline.RDat.FramePostR (cfgs 0) (fun c => (dats m 0 c).toRForget forgets0) T (fun c b => V0 m c (Proc.devRef .tc b))) :=
  Pipeline.RDat.θ_run_frame_around_T cfgs (0 : Fin 1) launch0 defs₀ Variants.none (fun c => (dats m 0 c).toRForget forgets0) T m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps)
    (hT := sfx_writes_T) (hmain := hmain m Variants.none) (hA := A_eq m) (hΦ := fun _ _ => rfl)

/-- THE FRAME: every weakly fair execution of @main terminates, and the two argument arrays end as launched — neither is
    an array of the pipeline, no host line before the region writes either, and none after it does. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), main_arg0_not_mem_T⟩)).trans (V_main_arg0 m c),
     ((h c).2 main_arg1 (Finset.mem_sdiff.mpr ⟨Pipeline.mem_restRefs_of main_arg1 (by decide) (by decide), main_arg1_not_mem_T⟩)).trans (V_main_arg1 m c)⟩)
    (run_main m ρ)

end Cert.KernelIdeal.Hand

end
-- ==== Proof.Spec.lean ====
import Idealize.ShloMosaic.PureOps.Ideal
import Idealize.ShloMosaic.PureOps.Ideal.Laws
import Idealize.ShloMosaic.Lib.ValueIdx

/-!
The quantity both programs compute, as one real number.

The two argument arrays are [64, 10647, 85]: 681408 = 64 · 10647 data rows of 85 channels each.
Row `d` is *selected* when its label's channel 0 exceeds the threshold 1/2. With `a` the weight
(the binary value of the literal the programs share), the loss is

  Σ_{d selected} Σ_c (y − x)²(d, c)  −  a · ( Σ_{d selected} Σ_c x²(d, c)  −  Σ_d x²(d, 0) ).
-/

noncomputable section

namespace Cert.Mloss

open Idealize.ShloMosaic

/-- The argument arrays' shape. -/
abbrev SX : Shape := ⟨3, ![64, 10647, 85]⟩

/-- The threshold and the weight, as both programs spell them. -/
def theta : EReal := Ideal.ofBits .f32 0x3F000000#32
def alphaE : EReal := Ideal.ofBits .f32 0x3DCCCCCD#32

/-- Entry (d, c) of an array: data row `d = 10647 · b + n`, channel `c`. -/
def cell (x : SX.Idx → EReal) (d : Fin 681408) (c : Fin 85) : EReal :=
  x (ValueIdx.ix3 (⟨d.val / 10647, by have := d.isLt; omega⟩ : Fin 64) (⟨d.val % 10647, Nat.mod_lt _ (by norm_num)⟩ : Fin 10647) c)

/-- A label value selects its row when it exceeds the threshold (the programs' ordered comparison). -/
def hit (v : EReal) : Prop := Ideal.cmp .ogt v theta = 1#1

instance (v : EReal) : Decidable (hit v) := by unfold hit; infer_instance

/-- Every entry of an array is a real number. -/
def IsRealArr {ι : Type} (x : ι → EReal) : Prop := ∀ i, ∃ r : ℝ, x i = (r : EReal)

/-- The loss over real entries `xr`, `yr`, weight `a`, selected rows `μ`. -/
def lossR (a : ℝ) (xr yr : Fin 681408 → Fin 85 → ℝ) (μ : Fin 681408 → Prop) [DecidablePred μ] : ℝ :=
  (∑ d, if μ d then ∑ c, (yr d c - xr d c) * (yr d c - xr d c) else 0)
    - a * ((∑ d, if μ d then ∑ c, xr d c * xr d c else 0) - ∑ d, xr d 0 * xr d 0)

/-- The loss of two arrays (meaningful when their entries are real). -/
def loss (x y : SX.Idx → EReal) : EReal :=
  ((lossR alphaE.toReal (fun d c => (cell x d c).toReal) (fun d c => (cell y d c).toReal)
      (fun d => hit (cell y d 0)) : ℝ) : EReal)

end Cert.Mloss

end
-- ==== Proof.Finite.lean ====
import proofs.«125290_g9715216024200_cont_9to1_m_804_10_alg».proof.Proof.Spec
import proofs.«125290_g9715216024200_cont_9to1_m_804_10_alg».proof.Proof.Gen.Pre_finite_inputs
import Idealize.ShloMosaic.Lib.ReduceAll
import Idealize.ShloMosaic.Lib.ValueIdx
import Idealize.ShloMosaic.Lib.Pipeline.Value

/-!
From the precondition to real entries.

The precondition says: every |x| is below +∞ and every |y| is below +∞ (each an "and" over all
entries, the two joined by "and"). An extended real whose absolute value max(v, −v) is strictly
below +∞ is neither +∞ nor −∞, so it is a real number. Hence both arrays have real entries.
-/

noncomputable section

namespace Cert.Mloss

open Idealize.ShloMosaic

/-- The scalar shape has one index. -/
instance : Subsingleton Cert.Pre_finite_inputs.S_.Idx := ⟨fun a b => funext fun d => d.elim0⟩

/-- An extended real with max(v, −v) < +∞ is a real number. -/
theorem real_of_abs_lt (v : EReal)
    (h : Ideal.cmp .olt (max v (-v)) (Ideal.ofBits .f32 0x7F800000#32) = 1#1) : ∃ r : ℝ, v = (r : EReal) := by
  have hT : Ideal.ofBits .f32 0x7F800000#32 = (⊤ : EReal) := by simp [Ideal.ofBits, Ideal.ieee]
  rw [hT] at h
  induction v using EReal.rec with
  | bot => simp [Ideal.cmp] at h
  | coe r => exact ⟨r, rfl⟩
  | top => simp [Ideal.cmp] at h

/-- Under the precondition every entry of both arrays is a real number. -/
theorem isReal_of_pre [Cert.Pre_finite_inputs.Facts] (x y : SX.Idx → EReal)
    (h : Cert.Pre_finite_inputs.fn (F := Ideal) x y = fun _ => 1#1) : IsRealArr x ∧ IsRealArr y := by
  have h0 := congrFun h ValueIdx.ix0
  dsimp only [Cert.Pre_finite_inputs.fn] at h0
  -- the final "and" of the two conjunctions
  have h1 := IntOp.andi_eq_one.1 (show IntOp.andi _ _ = 1#1 from h0)
  -- one entry of the comparison |z| < +∞ being 1 makes that entry real
  have elt : ∀ (z : SX.Idx → EReal) (i : SX.Idx),
      cmpf (F := Ideal) CmpFPredicate.olt (Host.absf z)
          (broadcastInDim Pre_finite_inputs.S64x10647x85 ![] Pre_finite_inputs.Facts.bcast_S_S64x10647x85
            (constant (F := Ideal) Pre_finite_inputs.S_ FTy.f32 0x7F800000#32)) i = 1#1 → ∃ r : ℝ, z i = (r : EReal) := by
    intro z i hi
    rw [ValueIdx.cmpf_apply, broadcastInDim_apply _ Pre_finite_inputs.Facts.bcast_S_S64x10647x85 _ i ValueIdx.ix0 (fun a => a.elim0)] at hi
    exact real_of_abs_lt (z i) hi
  -- each conjunction over all entries being 1 makes every entry's comparison 1
  exact ⟨fun i => elt x i (Host.reduce_andi_all _ _ _ _ _ h1.1 i), fun i => elt y i (Host.reduce_andi_all _ _ _ _ _ h1.2 i)⟩

end Cert.Mloss

end
-- ==== Proof.RealFacts.lean ====
import proofs.«125290_g9715216024200_cont_9to1_m_804_10_alg».proof.Proof.Spec

/-!
The weight and the threshold are real numbers: the weight's binary value is
13421773 · 2⁻²⁷, the threshold's is 1/2.
-/

noncomputable section

namespace Cert.Mloss

open Idealize.ShloMosaic

/-- The weight's exact binary value. -/
theorem alphaE_eq : alphaE = (((13421773 : ℝ) * (2 : ℝ) ^ (-27 : Int) : ℝ) : EReal) := by
  unfold alphaE
  simp [Ideal.ofBits, Ideal.ieee, -EReal.coe_mul]

/-- The weight is a real number. -/
theorem alphaE_real : ∃ a : ℝ, alphaE = (a : EReal) := ⟨_, alphaE_eq⟩

/-- The threshold is one half. -/
theorem theta_eq : theta = (((1 / 2 : ℝ) : ℝ) : EReal) := by
  unfold theta
  simp [Ideal.ofBits, Ideal.ieee, -EReal.coe_mul]
  norm_num

end Cert.Mloss

end
-- ==== Proof.RefIdx.lean ====
import proofs.«125290_g9715216024200_cont_9to1_m_804_10_alg».proof.Proof.Spec

/-!
Index algebra for the [64, 10647, 85] arrays.

A data row d < 681408 = 64 · 10647 is the pair (b, n) = (d / 10647, d % 10647); this is a bijection
between pairs and rows. Hence a sum over all three-coordinate indices is the double sum over rows d
and channels c, and a sum over all two-coordinate indices (b, n) is the sum over rows d.
-/

noncomputable section

open scoped BigOperators

namespace Cert.Mloss

open Idealize.ShloMosaic

/-- The first coordinate of row d. -/
abbrev rowB (d : Fin 681408) : Fin 64 := ⟨d.val / 10647, by have := d.isLt; omega⟩
/-- The second coordinate of row d. -/
abbrev rowN (d : Fin 681408) : Fin 10647 := ⟨d.val % 10647, Nat.mod_lt _ (by norm_num)⟩

/-- The array index of entry (d, c). -/
abbrev cellIdx (d : Fin 681408) (c : Fin 85) : SX.Idx := ValueIdx.ix3 (rowB d) (rowN d) c

/-- The two-coordinate index of row d. -/
abbrev rowIdx (d : Fin 681408) : (⟨2, ![64, 10647]⟩ : Shape).Idx := ValueIdx.ix2 (rowB d) (rowN d)

/-- An entry is the array at its index. -/
theorem cell_eq (x : SX.Idx → EReal) (d : Fin 681408) (c : Fin 85) : cell x d c = x (cellIdx d c) := rfl

/-- Pairs (b, n) and rows d = 10647 · b + n correspond one to one. -/
def rowEquiv : Fin 64 × Fin 10647 ≃ Fin 681408 where
  toFun p := ⟨10647 * p.1.val + p.2.val, by have := p.1.isLt; have := p.2.isLt; omega⟩
  invFun d := (rowB d, rowN d)
  left_inv p := by
    have h1 := p.1.isLt
    have h2 := p.2.isLt
    refine Prod.ext (Fin.ext ?_) (Fin.ext ?_)
    · show (10647 * p.1.val + p.2.val) / 10647 = p.1.val
      omega
    · show (10647 * p.1.val + p.2.val) % 10647 = p.2.val
      omega
  right_inv d := Fin.ext (by
    show 10647 * (d.val / 10647) + d.val % 10647 = d.val
    omega)

/-- A three-coordinate index is its coordinates. -/
def idx3Equiv : SX.Idx ≃ (Fin 64 × Fin 10647) × Fin 85 where
  toFun i := ((i 0, i 1), i 2)
  invFun p := ValueIdx.ix3 p.1.1 p.1.2 p.2
  left_inv i := (ValueIdx.eq_ix3 i).symm
  right_inv _ := rfl

/-- A sum over all entries is the sum over rows and channels. -/
theorem sum_SX {M : Type*} [AddCommMonoid M] (f : SX.Idx → M) :
    ∑ j, f j = ∑ d : Fin 681408, ∑ c : Fin 85, f (cellIdx d c) := by
  rw [← Equiv.sum_comp idx3Equiv.symm f, Fintype.sum_prod_type, ← Equiv.sum_comp rowEquiv.symm]
  rfl

/-- A sum over all pairs (b, n) is the sum over rows. -/
theorem sum_S2 {M : Type*} [AddCommMonoid M] (f : (⟨2, ![64, 10647]⟩ : Shape).Idx → M) :
    ∑ i, f i = ∑ d : Fin 681408, f (rowIdx d) := by
  rw [← Equiv.sum_comp (ValueIdx.idxEquiv2 (n0 := 64) (n1 := 10647)).symm f, ← Equiv.sum_comp rowEquiv.symm]
  rfl

end Cert.Mloss

end
-- ==== Proof.LossLaw.lean ====
import proofs.«125290_g9715216024200_cont_9to1_m_804_10_alg».proof.Proof.Spec

/-!
The algebraic law between the two arrangements of the loss.

With A(d, c) = (y − x)²(d, c), B(d, c) = x²(d, c), a mask m(d) ∈ {0, 1} that is 1 exactly on the
selected rows, and X(d) = x²(d, k₀):

  Σ_{d,c} (A − a·B)(d, c) · m(d)  +  Σ_d a · X(d)
    =  Σ_{d selected} Σ_c A(d, c)  −  a · ( Σ_{d selected} Σ_c B(d, c)  −  Σ_d X(d) ).

Row by row: when m(d) = 1 the inner sum is Σ_c A − a · Σ_c B, when m(d) = 0 it is 0; the rest is
linearity of finite sums. All quantities are real, so the same identity holds for the extended
reals that are their images.
-/

noncomputable section

open scoped BigOperators

namespace Cert.Mloss

open Idealize.ShloMosaic

/-- The image of a finite real sum is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A one-bit word read as a number is 1 when the bit is set and 0 otherwise. -/
theorem bit_toNat (b : BitVec 1) : ((b.toNat : ℝ)) = if b = 1#1 then 1 else 0 := by
  rcases BitVec.eq_zero_or_eq_one b with h | h <;> subst h <;> simp

/-- An extended real that is a real number is the image of its real part. -/
theorem eq_coe_toReal {v : EReal} (h : ∃ r : ℝ, v = (r : EReal)) : v = ((v.toReal : ℝ) : EReal) := by
  obtain ⟨r, rfl⟩ := h
  rw [EReal.toReal_coe]

/-- The law, over real numbers and abstract finite index sets. -/
theorem loss_law {ι κ : Type*} [Fintype ι] [Fintype κ] (xr yr : ι → κ → ℝ) (a : ℝ)
    (μ : ι → Prop) [DecidablePred μ] (k0 : κ) :
    (∑ d, ∑ c, ((yr d c - xr d c) * (yr d c - xr d c) - a * (xr d c * xr d c)) * (if μ d then (1 : ℝ) else 0))
        + ∑ d, a * (xr d k0 * xr d k0)
      = (∑ d, if μ d then ∑ c, (yr d c - xr d c) * (yr d c - xr d c) else 0)
        - a * ((∑ d, if μ d then ∑ c, xr d c * xr d c else 0) - ∑ d, xr d k0 * xr d k0) := by
  have row : ∀ d, (∑ c, ((yr d c - xr d c) * (yr d c - xr d c) - a * (xr d c * xr d c)) * (if μ d then (1 : ℝ) else 0))
      = (if μ d then ∑ c, (yr d c - xr d c) * (yr d c - xr d c) else 0)
        - a * (if μ d then ∑ c, xr d c * xr d c else 0) := by
    intro d
    split_ifs
    · simp only [mul_one, Finset.sum_sub_distrib, Finset.mul_sum]
    · simp only [mul_zero, Finset.sum_const_zero, sub_zero]
  simp only [row, Finset.sum_sub_distrib, ← Finset.mul_sum]
  ring

/-- The law for the images in the extended reals, with the mask a one-bit word per row. -/
theorem eloss_eq (a : ℝ) (xr yr : Fin 681408 → Fin 85 → ℝ) (m : Fin 681408 → BitVec 1)
    (μ : Fin 681408 → Prop) [DecidablePred μ] (hμ : ∀ d, μ d ↔ m d = 1#1) :
    (∑ d, ∑ c, (((yr d c : EReal) - (xr d c : EReal)) * ((yr d c : EReal) - (xr d c : EReal))
          - (a : EReal) * ((xr d c : EReal) * (xr d c : EReal))) * ((((m d).toNat : ℝ) : ℝ) : EReal))
        + ∑ d, (a : EReal) * ((xr d 0 : EReal) * (xr d 0 : EReal))
      = ((lossR a xr yr μ : ℝ) : EReal) := by
  have hm : ∀ d, (((m d).toNat : ℝ)) = if μ d then 1 else 0 := by
    intro d
    rw [bit_toNat]
    by_cases h : μ d
    · rw [if_pos h, if_pos ((hμ d).1 h)]
    · rw [if_neg h, if_neg (fun h' => h ((hμ d).2 h'))]
  simp only [← EReal.coe_sub, ← EReal.coe_mul, ← coe_sum, ← EReal.coe_add, hm]
  rw [loss_law xr yr a μ 0]
  rfl

end Cert.Mloss

end
-- ==== Proof.RefPoint.lean ====
import proofs.«125290_g9715216024200_cont_9to1_m_804_10_alg».proof.Proof.Gen.ReferenceIdeal.Read
import proofs.«125290_g9715216024200_cont_9to1_m_804_10_alg».proof.Proof.Spec
import proofs.«125290_g9715216024200_cont_9to1_m_804_10_alg».proof.Proof.RefIdx

/-!
The reference's two summands, entry by entry.

The first summand at entry (b, n, c) is ((y − x)·(y − x) − α·(x·x)) times the mask of row (b, n);
the mask is the bit "y(b, n, 0) exceeds the threshold" read as the number 0 or 1. The second
summand at row (b, n) is α·(x(b, n, 0)·x(b, n, 0)). The only index arithmetic is that the
flattening (b, n) ↦ 10647·b + n followed by division and remainder by 10647 gives back (b, n).
-/

noncomputable section

namespace Cert.ReferenceIdeal.RefValue

open Idealize.ShloMosaic Cert.ReferenceIdeal Cert.ReferenceIdeal.Read Cert.Mloss
open Idealize.ShloMosaic.ValueIdx (ix2 ix3)

/-- The label entry the mask of entry (b, n, c) reads is (b, n, 0). -/
theorem mask_idx (b : Fin 64) (n : Fin 10647) (c : Fin 85) :
    idx_main_v0 (idx_main_v1 (idx_main_v11 (idx_main_v12 (ix3 b n c)))) = ix3 b n (0 : Fin 85) := by
  have hb := b.isLt
  have hn := n.isLt
  funext a
  refine Fin.ext ?_
  match a with
  | ⟨0, _⟩ =>
    show (b.val * 10647 + n.val) / 10647 = b.val
    omega
  | ⟨1, _⟩ =>
    show (b.val * 10647 + n.val) / 1 % 10647 = n.val
    omega
  | ⟨2, _⟩ => rfl

/-- The prediction entry the second summand of row (b, n) reads is (b, n, 0). -/
theorem col0_idx (b : Fin 64) (n : Fin 10647) :
    idx_main_v14 (idx_main_v15 (ix2 b n)) = ix3 b n (0 : Fin 85) := by
  have hb := b.isLt
  have hn := n.isLt
  funext a
  refine Fin.ext ?_
  match a with
  | ⟨0, _⟩ =>
    show (b.val * 10647 + n.val) / 10647 = b.val
    omega
  | ⟨1, _⟩ =>
    show (b.val * 10647 + n.val) / 1 % 10647 = n.val
    omega
  | ⟨2, _⟩ => rfl

/-- The first summand at entry (b, n, c). -/
theorem v13_at (x y : SX.Idx → EReal) (b : Fin 64) (n : Fin 10647) (c : Fin 85) :
    val_main_v13 (F := Ideal) x y (ix3 b n c)
      = ((y (ix3 b n c) - x (ix3 b n c)) * (y (ix3 b n c) - x (ix3 b n c))
          - alphaE * (x (ix3 b n c) * x (ix3 b n c)))
        * ((((Ideal.cmp .ogt (y (ix3 b n (0 : Fin 85))) theta).toNat : ℝ) : ℝ) : EReal) := by
  rw [val_main_v13_apply, val_main_v10_apply, val_main_v6_apply, val_main_v5_apply, val_main_v9_apply,
    val_main_v8_apply, val_main_cst_0_apply, val_main_v7_apply, val_main_v12_apply, val_main_v11_apply,
    val_main_v4_apply, val_main_v3_apply, val_main_v1_apply, val_main_v0_apply, val_main_v2_apply,
    val_main_cst_apply, mask_idx]
  rfl

/-- The second summand at row (b, n). -/
theorem v18_at (x : SX.Idx → EReal) (b : Fin 64) (n : Fin 10647) :
    val_main_v18 (F := Ideal) x (ix2 b n) = alphaE * (x (ix3 b n (0 : Fin 85)) * x (ix3 b n (0 : Fin 85))) := by
  rw [val_main_v18_apply, val_main_v17_apply, val_main_cst_1_apply, val_main_v16_apply, val_main_v15_apply,
    val_main_v14_apply, col0_idx]
  rfl

end Cert.ReferenceIdeal.RefValue

end
-- ==== Proof.RefSide.lean ====
import proofs.«125290_g9715216024200_cont_9to1_m_804_10_alg».proof.Defs
import proofs.«125290_g9715216024200_cont_9to1_m_804_10_alg».proof.Proof.Gen.ReferenceIdeal.Read
import proofs.«125290_g9715216024200_cont_9to1_m_804_10_alg».proof.Proof.Spec
import proofs.«125290_g9715216024200_cont_9to1_m_804_10_alg».proof.Proof.RealFacts
import proofs.«125290_g9715216024200_cont_9to1_m_804_10_alg».proof.Proof.RefIdx
import proofs.«125290_g9715216024200_cont_9to1_m_804_10_alg».proof.Proof.LossLaw
import proofs.«125290_g9715216024200_cont_9to1_m_804_10_alg».proof.Proof.RefPoint
import Idealize.ShloMosaic.PureOps.Ideal.Laws

/-!
The reference program computes the loss.

Its result is (0 + Σ over all entries of the first summand) + (0 + Σ over all rows of the second
summand). Both sums are re-indexed by data rows d and channels c; every entry and the weight are
real numbers, so the extended-real sums are images of real sums, and the law between the two
arrangements of the loss finishes.
-/

noncomputable section

open scoped BigOperators

namespace Cert.ReferenceIdeal.RefValue

open Idealize.ShloMosaic Cert.ReferenceIdeal Cert.ReferenceIdeal.Read Cert.Mloss

/-- On arrays of real entries the reference's result is the loss. -/
theorem ref_loss (x y : Cert.Mloss.SX.Idx → EReal) (hx : Cert.Mloss.IsRealArr x) (hy : Cert.Mloss.IsRealArr y) :
    Cert.ReferenceIdeal.Read.val_main_v21 (F := Ideal) x y = fun _ => Cert.Mloss.loss x y := by
  funext i
  rw [val_main_v21_apply, val_main_v19_apply, val_main_v20_apply, val_main_cst_2_apply, val_main_cst_3_apply,
    Ideal.ofBits_def, Ideal.ofBits_zero_f32, Ideal.addf_def, zero_add, zero_add, sum_SX, sum_S2]
  -- the weight is a real number
  have ha : alphaE = ((alphaE.toReal : ℝ) : EReal) := eq_coe_toReal alphaE_real
  -- the first summand at entry (d, c), over the real parts
  have s1 : ∀ (d : Fin 681408) (c : Fin 85), val_main_v13 (F := Ideal) x y (cellIdx d c)
      = (((((cell y d c).toReal : ℝ) : EReal) - (((cell x d c).toReal : ℝ) : EReal))
            * ((((cell y d c).toReal : ℝ) : EReal) - (((cell x d c).toReal : ℝ) : EReal))
          - ((alphaE.toReal : ℝ) : EReal) * ((((cell x d c).toReal : ℝ) : EReal) * (((cell x d c).toReal : ℝ) : EReal)))
        * ((((Ideal.cmp .ogt (cell y d 0) theta).toNat : ℝ) : ℝ) : EReal) := by
    intro d c
    have e1 : x (ValueIdx.ix3 (rowB d) (rowN d) c) = (((cell x d c).toReal : ℝ) : EReal) := eq_coe_toReal (hx _)
    have e2 : y (ValueIdx.ix3 (rowB d) (rowN d) c) = (((cell y d c).toReal : ℝ) : EReal) := eq_coe_toReal (hy _)
    rw [v13_at x y (rowB d) (rowN d) c, e1, e2, ← ha]
    rfl
  -- the second summand at row d
  have s2 : ∀ d : Fin 681408, val_main_v18 (F := Ideal) x (rowIdx d)
      = ((alphaE.toReal : ℝ) : EReal) * ((((cell x d 0).toReal : ℝ) : EReal) * (((cell x d 0).toReal : ℝ) : EReal)) := by
    intro d
    have e1 : x (ValueIdx.ix3 (rowB d) (rowN d) (0 : Fin 85)) = (((cell x d 0).toReal : ℝ) : EReal) := eq_coe_toReal (hx _)
    rw [v18_at x (rowB d) (rowN d), e1, ← ha]
  refine Eq.trans ?_ (eloss_eq alphaE.toReal (fun d c => (cell x d c).toReal) (fun d c => (cell y d c).toReal)
    (fun d => Ideal.cmp .ogt (cell y d 0) theta) (fun d => hit (cell y d 0)) (fun d => Iff.rfl))
  refine congrArg₂ (· + ·) ?_ ?_
  · exact Finset.sum_congr rfl fun d _ => Finset.sum_congr rfl fun c _ => s1 d c
  · exact Finset.sum_congr rfl fun d _ => s2 d

end Cert.ReferenceIdeal.RefValue

end
-- ==== Proof.BodyRunA.lean ====
/-
The kernel body at one grid point, run symbolically on whole staging buffers.

The body reads the two 512×1360 input blocks and the 1360×32 selector block, and adds three
masked 512×16 partial sums into the three slabs of the 3×512×16 accumulator block; at the first
grid point (coordinate 0) it first clears the accumulator. This module holds the two cases
(first point / later point) as triples whose post names the accumulator's final contents as the
list of the stores' pieces.
-/
import proofs.«125290_g9715216024200_cont_9to1_m_804_10_alg».proof.Proof.Gen.KernelIdeal.Launch
import proofs.«125290_g9715216024200_cont_9to1_m_804_10_alg».proof.Proof.Gen.KernelIdeal.Skeleton
import proofs.«125290_g9715216024200_cont_9to1_m_804_10_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch: "this is grid point 0", as the program computes it from the coordinate. -/
abbrev isFirst (i : grid0.Coords) : Prop :=
  Scalar.cmpi .ne (Scalar.extui (Scalar.cmpi .eq (BitVec.ofNat 32 (i 0).val) 0#32) : BitVec 32) 0#32 = 1#1

/-- It holds exactly at point 0 of the 84. -/
theorem isFirst_iff : ∀ t : Fin cfg0.N, isFirst (grid0.coords t) ↔ t.val = 0 :=
  (by decide +kernel : ∀ t : Fin grid0.N, isFirst (grid0.coords t) ↔ t.val = 0)

set_option maxHeartbeats 2000000 in
/-- First point: whatever the accumulator's buffer held, the body clears it and adds the point's terms. -/
noncomputable def runFirst (c : Dev nD) (i : grid0.Coords)
    (arg1 : Memref sig .tc .vmem S512x1360 .f32) (harg1 : arg1.IsWhole)
    (arg2 : Memref sig .tc .vmem S512x1360 .f32) (harg2 : arg2.IsWhole)
    (arg3 : Memref sig .tc .vmem S1360x32 .f32) (harg3 : arg3.IsWhole)
    (arg4 : Memref sig .tc .vmem S3x512x16 .f32) (harg4 : arg4.IsWhole) (hc0 : isFirst i)
    (x0 x1 : Vec F S512x1360 .f32) (x2 : Vec F S1360x32 .f32) :
    { L : List (View.Piece (Elt F) S3x512x16 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E (cc0__body i arg1 harg1 arg2 harg2 arg3 harg3 arg4 harg4) K } := by
  refine ⟨?_, fun E K => ?run⟩
  case run =>
    simp only [cc0__body_eq_skeleton]; unfold cc0__body_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Val

end
-- ==== Proof.BodyRunB.lean ====
/-
The kernel body at a grid point after the first: the accumulator block is read back and added to.
-/
import proofs.«125290_g9715216024200_cont_9to1_m_804_10_alg».proof.Proof.BodyRunA

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- Later point: the accumulator's buffer holds `xo`; the body adds the point's terms to it. -/
noncomputable def runLater (c : Dev nD) (i : grid0.Coords)
    (arg1 : Memref sig .tc .vmem S512x1360 .f32) (harg1 : arg1.IsWhole)
    (arg2 : Memref sig .tc .vmem S512x1360 .f32) (harg2 : arg2.IsWhole)
    (arg3 : Memref sig .tc .vmem S1360x32 .f32) (harg3 : arg3.IsWhole)
    (arg4 : Memref sig .tc .vmem S3x512x16 .f32) (harg4 : arg4.IsWhole) (hc0 : ¬isFirst i)
    (x0 x1 : Vec F S512x1360 .f32) (x2 : Vec F S1360x32 .f32) (xo : Vec F S3x512x16 .f32) :
    { L : List (View.Piece (Elt F) S3x512x16 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare xo
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E (cc0__body i arg1 harg1 arg2 harg2 arg3 harg3 arg4 harg4) K } := by
  refine ⟨?_, fun E K => ?run⟩
  case run =>
    simp only [cc0__body_eq_skeleton]; unfold cc0__body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Val

end
-- ==== Proof.LibPlainDot.lean ====
/-
  A plain matrix product read at an index.

  For the dimension numbers of an `M×K` by `K×N` product (contract the left operand's columns with the right operand's
  rows, no batch axis), the left operand's index at result index `(p, q)` and contraction position `k` is `(p, k)` and the
  right operand's is `(k, q)`. So, at the exact values, the vector unit's product into the zero accumulator and the
  host's `dot_general` are both, at `(p, q)`, the sum over `k` of `l (p, k) · r (k, q)`.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- One axis is contracted, of extent `K`. -/
theorem contr_rank : (DotDims.plain M K N).contr.rank = 1 := rfl
theorem contr_size : (DotDims.plain M K N).contr.size ⟨0, by rw [contr_rank]; exact Nat.one_pos⟩ = K := rfl

/-- The contraction positions are the numbers below `K`. -/
abbrev pos : (DotDims.plain M K N).contr.Idx ≃ Fin K := contrEquiv1 (DotDims.plain M K N) K (contr_rank M K N) (contr_size M K N)

/-- On its row axis the left operand follows the result's row. -/
theorem lhsIdx_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its column axis the right operand follows the result's column. -/
theorem rhsIdx_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand is read at `(p, k)`. -/
theorem lhsIdx_eq (p : Fin M) (q : Fin N) (k : Fin K) :
    (DotDims.plain M K N).lhsIdx (ix2 p q) ((pos M K N).symm k) = ix2 p k := by
  have hk := contrEquiv1_symm_val (DotDims.plain M K N) K (contr_rank M K N) (contr_size M K N) k
  funext a
  apply Fin.ext
  match a with
  | ⟨0, _⟩ => exact lhsIdx_row M K N _ _
  | ⟨1, _⟩ => exact ((DotDims.plain M K N).lhsIdx_val_of_single (cl := (1 : Fin 2)) rfl _ _).trans hk

/-- The right operand is read at `(k, q)`. -/
theorem rhsIdx_eq (p : Fin M) (q : Fin N) (k : Fin K) :
    (DotDims.plain M K N).rhsIdx (ix2 p q) ((pos M K N).symm k) = ix2 k q := by
  have hk := contrEquiv1_symm_val (DotDims.plain M K N) K (contr_rank M K N) (contr_size M K N) k
  funext a
  apply Fin.ext
  match a with
  | ⟨0, _⟩ => exact ((DotDims.plain M K N).rhsIdx_val_of_single (cr := (0 : Fin 2)) rfl _ _).trans hk
  | ⟨1, _⟩ => exact rhsIdx_col M K N _ _

variable {M K N}

/-- The sum over contraction positions is the sum over `k < K` of the operands at `(p, k)` and `(k, q)`. -/
theorem sum_contr {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k) : EReal)
      = ∑ k : Fin K, l (ix2 p k) * r (ix2 k q) := by
  rw [← Equiv.sum_comp (pos M K N).symm]
  refine Finset.sum_congr rfl fun k _ => ?_
  rw [lhsIdx_eq, rhsIdx_eq]

/-- The vector unit's product into the zero accumulator, at `(p, q)`. -/
theorem matmul_zero_apply {φ₁ φ₂ : FTy} (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant ⟨2, ![M, N]⟩ .f32 0x00000000#32) (ix2 p q) = ∑ k : Fin K, l (ix2 p k) * r (ix2 k q) :=
  (Ideal.matmul_constant_zero_apply _ prec l r _).trans (sum_contr l r p q)

/-- The host's `dot_general`, at `(p, q)`. -/
theorem dotGeneral_apply {φ₁ φ₂ : FTy} (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply _ prec sched l r _).trans (sum_contr l r p q)

end Cert.PlainDot

end
-- ==== Proof.ValidWord.lean ====
/-
The 32-bit signed test "512·a + r < 42588" for a block number a < 84 and a row r < 512 is the test on
the natural numbers (no wrap-around: 512·83 + 511 < 2³¹).
-/
import Idealize.ShloMosaic.PureOps

namespace Cert.KernelIdeal.Hand

open Idealize.ShloMosaic

theorem validWord : ∀ (a : Fin 84) (r : Fin 512),
    IntOp.cmpi .slt (IntOp.addi (Scalar.muli (BitVec.ofNat 32 a.val) 512#32) (BitVec.ofNat 32 r.val)) 42588#32
      = BitVec.ofBool (decide (512 * a.val + r.val < 42588)) := by
  decide +kernel

end Cert.KernelIdeal.Hand
-- ==== Proof.Payload.lean ====
/-
The kernel body's arithmetic at one entry, at the exact (extended real) values.

For a block row r and a group j < 16 the body forms three 1360-term dot products of row r with
columns of the selector matrix, masks them with "row r lies inside the array" and "the label's
dot product exceeds the threshold", and adds them to the accumulator's three slabs.
-/
import proofs.«125290_g9715216024200_cont_9to1_m_804_10_alg».proof.Proof.Gen.KernelIdeal.Skeleton
import proofs.«125290_g9715216024200_cont_9to1_m_804_10_alg».proof.Proof.LibPlainDot
import proofs.«125290_g9715216024200_cont_9to1_m_804_10_alg».proof.Proof.ValidWord
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
variable {F : FTy → Type} [FloatOps F]

local notation "𝕄" => MT nD τ sig Unit (Elt F) ℕ (UR sig nD τ) ℕ

/-- Row `r` of the block at grid point `i` is row `512·i + r` of the 42588-row array, if that is a row. -/
def inArr (i : grid0.Coords) (r : Fin 512) : Prop := 512 * (i 0).val + r.val < 42588

instance (i : grid0.Coords) (r : Fin 512) : Decidable (inArr i r) := by unfold inArr; infer_instance

theorem validBit (i : grid0.Coords) (r : Fin 512) (j : Fin 16) :
    k0_pay12 i (ix2 r j) = BitVec.ofBool (decide (inArr i r)) := by
  unfold k0_pay12 inArr
  show IntOp.cmpi .slt (IntOp.addi (Scalar.muli (BitVec.ofNat 32 (i 0).val) 512#32)
      (iota .tc S512x16 32 [0] iota_S512x16_d0_w32 (ix2 r j))) 42588#32 = _
  rw [iota_single_apply]
  exact Cert.KernelIdeal.Hand.validWord (i 0) r

/-- A 512×1360 by 1360×16 product into the zero accumulator, at (r, j). -/
theorem mm (A : FVec Ideal S512x1360 .f32) (B : FVec Ideal S1360x16 .f32) (r : Fin 512) (j : Fin 16) :
    matmul dot_S512x1360_S1360x16_S512x16_1_0_0_1_n_n none A B (constant S512x16 .f32 0x00000000#32) (ix2 r j)
      = ∑ e : Fin 1360, A (ix2 r e) * B (ix2 e j) :=
  Cert.PlainDot.matmul_zero_apply none A B r j

/-- "Selected": the label row's dot product with the picking column exceeds 1/2, and the row is in the array. -/
def hbit (i : grid0.Coords) (X1 : S512x1360.Idx → EReal) (Shi : S1360x16.Idx → EReal) (r : Fin 512) (j : Fin 16) : BitVec 1 :=
  IntOp.andi (Ideal.cmp .ogt (∑ e : Fin 1360, X1 (ix2 r e) * Shi (ix2 e j)) (Ideal.ofBits .f32 0x3F000000#32))
    (BitVec.ofBool (decide (inArr i r)))

/-- The three terms added at (r, j). -/
def term0 (i : grid0.Coords) (X0 X1 : S512x1360.Idx → EReal) (Slo Shi : S1360x16.Idx → EReal) (r : Fin 512) (j : Fin 16) : EReal :=
  Scalar.select (hbit i X1 Shi r j)
    (∑ e : Fin 1360, ((X1 (ix2 r e) - X0 (ix2 r e)) * (X1 (ix2 r e) - X0 (ix2 r e))) * Slo (ix2 e j)) (Ideal.ofBits .f32 0x00000000#32)
def term1 (i : grid0.Coords) (X0 X1 : S512x1360.Idx → EReal) (Slo Shi : S1360x16.Idx → EReal) (r : Fin 512) (j : Fin 16) : EReal :=
  Scalar.select (hbit i X1 Shi r j)
    (∑ e : Fin 1360, (X0 (ix2 r e) * X0 (ix2 r e)) * Slo (ix2 e j)) (Ideal.ofBits .f32 0x00000000#32)
def term2 (i : grid0.Coords) (X0 : S512x1360.Idx → EReal) (Shi : S1360x16.Idx → EReal) (r : Fin 512) (j : Fin 16) : EReal :=
  Scalar.select (BitVec.ofBool (decide (inArr i r)))
    (∑ e : Fin 1360, (X0 (ix2 r e) * X0 (ix2 r e)) * Shi (ix2 e j)) (Ideal.ofBits .f32 0x00000000#32)

theorem pay13_apply (i : grid0.Coords) (v5 : Vec Ideal S512x1360 .f32) (v9 : Vec Ideal S1360x16 .f32) (r : Fin 512) (j : Fin 16) :
    k0_pay13 i v5 v9 (ix2 r j) = hbit i v5 v9 r j := by
  unfold k0_pay13 k0_pay6 k0_pay8 hbit
  simp only [shapeCast_self]
  show IntOp.andi (Ideal.cmp .ogt (matmul (F := Ideal) dot_S512x1360_S1360x16_S512x16_1_0_0_1_n_n none v5 v9 (constant S512x16 .f32 0x00000000#32) (ix2 r j))
      (Ideal.ofBits .f32 0x3F000000#32)) (k0_pay12 i (ix2 r j)) = _
  rw [mm, validBit]

theorem pay14_apply (i : grid0.Coords) (v3 v5 : Vec Ideal S512x1360 .f32) (v7 v9 : Vec Ideal S1360x16 .f32)
    (v27 : Vec Ideal S1x512x16 .f32) (r : Fin 512) (j : Fin 16) :
    k0_pay14 i v3 v5 v7 v9 v27 (ix2 r j) = v27 (ix3 (0 : Fin 1) r j) + term0 i v3 v5 v7 v9 r j := by
  unfold k0_pay14 k0_pay5 k0_pay6 k0_pay7 term0
  simp only [shapeCast_self]
  show shapeCast S512x16 v27 shapeCasts_S1x512x16_S512x16 (ix2 r j)
      + Scalar.select (k0_pay13 i v5 v9 (ix2 r j))
          (matmul (F := Ideal) dot_S512x1360_S1360x16_S512x16_1_0_0_1_n_n none (mulf (subf v5 v3) (subf v5 v3)) v7 (constant S512x16 .f32 0x00000000#32) (ix2 r j))
          (Ideal.ofBits .f32 0x00000000#32) = _
  rw [shapeCast_1ab_ab_apply, pay13_apply, mm]
  rfl

theorem pay2_apply (i : grid0.Coords) (v3 v5 : Vec Ideal S512x1360 .f32) (v7 v9 : Vec Ideal S1360x16 .f32)
    (v35 : Vec Ideal S1x512x16 .f32) (u : Fin 1) (r : Fin 512) (j : Fin 16) :
    k0_pay2 (k0_pay10 v3 v7) (k0_pay13 i v5 v9) v35 (ix3 u r j) = v35 (ix3 (0 : Fin 1) r j) + term1 i v3 v5 v7 v9 r j := by
  unfold k0_pay2 k0_pay10 k0_pay9 k0_pay5 k0_pay7 term1
  simp only [shapeCast_self]
  rw [shapeCast_ab_1ab_apply]
  show shapeCast S512x16 v35 shapeCasts_S1x512x16_S512x16 (ix2 r j)
      + Scalar.select (k0_pay13 i v5 v9 (ix2 r j))
          (matmul (F := Ideal) dot_S512x1360_S1360x16_S512x16_1_0_0_1_n_n none (mulf v3 v3) v7 (constant S512x16 .f32 0x00000000#32) (ix2 r j))
          (Ideal.ofBits .f32 0x00000000#32) = _
  rw [shapeCast_1ab_ab_apply, pay13_apply, mm]
  rfl

theorem pay3_apply (i : grid0.Coords) (v3 : Vec Ideal S512x1360 .f32) (v9 : Vec Ideal S1360x16 .f32)
    (v43 : Vec Ideal S1x512x16 .f32) (u : Fin 1) (r : Fin 512) (j : Fin 16) :
    k0_pay3 (k0_pay11 v3 v9) (k0_pay12 i) v43 (ix3 u r j) = v43 (ix3 (0 : Fin 1) r j) + term2 i v3 v9 r j := by
  unfold k0_pay3 k0_pay11 k0_pay9 k0_pay5 k0_pay8 term2
  simp only [shapeCast_self]
  rw [shapeCast_ab_1ab_apply]
  show shapeCast S512x16 v43 shapeCasts_S1x512x16_S512x16 (ix2 r j)
      + Scalar.select (k0_pay12 i (ix2 r j))
          (matmul (F := Ideal) dot_S512x1360_S1360x16_S512x16_1_0_0_1_n_n none (mulf v3 v3) v9 (constant S512x16 .f32 0x00000000#32) (ix2 r j))
          (Ideal.ofBits .f32 0x00000000#32) = _
  rw [shapeCast_1ab_ab_apply, validBit, mm]
  rfl

theorem pay1_apply (v31 : FVec Ideal S512x16 .f32) (u : Fin 1) (r : Fin 512) (j : Fin 16) :
    k0_pay1 v31 (ix3 u r j) = v31 (ix2 r j) := by
  unfold k0_pay1
  exact shapeCast_ab_1ab_apply v31 _ u r j

end Cert.KernelIdeal.Val

end
-- ==== Proof.LibSlabs.lean ====
/-
The accumulator block [3, 512, 16] as three slabs [1, 512, 16].

A store into slab k (offsets (k, 0, 0), unit strides) places entry (0, r, j) of its payload at entry
(k, r, j) of the block; the slabs are disjoint. So what a list of stores "slab 2, slab 1, slab 0"
(last first), possibly over earlier stores, leaves at (k, r, j) is slab k's payload at (0, r, j).
-/
import Idealize.ShloMosaic.Lib.Pipeline.FrameBody
import Idealize.ShloMosaic.Lib.Pipeline.Value
import Idealize.ShloMosaic.Lib.ValueIdx

set_option maxRecDepth 16384

noncomputable section

namespace Cert.Slabs

open Idealize.ShloMosaic Idealize.ShloMosaic.ValueIdx

abbrev SA : Shape := ⟨3, ![3, 512, 16]⟩
abbrev SB : Shape := ⟨3, ![1, 512, 16]⟩

variable {Val : EltTy → Type} {e : EltTy}

/-- Slab `k`'s rectangle. -/
abbrev slab (k : ℕ) (inb : ∀ a, (![k, 0, 0] : Fin 3 → ℕ) a + (![1, 512, 16] : Fin 3 → ℕ) a ≤ SA.size a) : Rect SA :=
  Rect.unit (s := SA) ![k, 0, 0] ![1, 512, 16] inb

theorem slab_idx (k : ℕ) (hk : k < 3) (inb) (r : Fin 512) (j : Fin 16) :
    (slab k inb).idx (ix3 (0 : Fin 1) r j) = ix3 (⟨k, hk⟩ : Fin 3) r j := by
  funext a
  apply Fin.ext
  match a with
  | ⟨0, _⟩ => show k + 1 * (0 : ℕ) = k; omega
  | ⟨1, _⟩ => show 0 + 1 * r.val = r.val; omega
  | ⟨2, _⟩ => show 0 + 1 * j.val = j.val; omega

theorem slab_emb (k : ℕ) (hk : k < 3) (inb) (r : Fin 512) (j : Fin 16) :
    (slab k inb).emb (ix3 (0 : Fin 1) r j) = ix3 (⟨k, hk⟩ : Fin 3) r j := slab_idx k hk inb r j

theorem mem_slab_iff (k : ℕ) (inb) (k' : Fin 3) (r : Fin 512) (j : Fin 16) :
    ix3 k' r j ∈ (slab k inb).set ↔ k'.val = k := by
  rw [Rect.mem_set_unit]
  constructor
  · intro h
    have h0 := h (⟨0, by decide⟩ : Fin 3)
    have e0 : ((ix3 k' r j : SA.Idx) ⟨0, by decide⟩ : ℕ) = k'.val := rfl
    have o0 : (![k, 0, 0] : Fin 3 → ℕ) ⟨0, by decide⟩ = k := rfl
    have s0 : (![1, 512, 16] : Fin 3 → ℕ) ⟨0, by decide⟩ = 1 := rfl
    rw [e0, o0, s0] at h0
    omega
  · intro h a
    match a with
    | ⟨0, _⟩ => show k ≤ k'.val ∧ k'.val < k + 1; omega
    | ⟨1, _⟩ => show 0 ≤ r.val ∧ r.val < 0 + 512; have := r.isLt; omega
    | ⟨2, _⟩ => show 0 ≤ j.val ∧ j.val < 0 + 16; have := j.isLt; omega

/-- A load of slab `k` reads the block at (k, r, j). -/
theorem ld_slab (X : SA.Idx → Val e) (k : ℕ) (hk : k < 3) (inb) (r : Fin 512) (j : Fin 16) :
    View.ld X (slab k inb) (ix3 (0 : Fin 1) r j) = X (ix3 (⟨k, hk⟩ : Fin 3) r j) :=
  congrArg X (slab_idx k hk inb r j)

variable [∀ e, Nonempty (Val e)]

/-- What the stores "slab 2, slab 1, slab 0" (last first) over any earlier stores leave at (k, r, j). -/
theorem canon_slabs (inb0 inb1 inb2) (w0 w1 w2 : SB.Idx → Val e) (T : List (View.Piece Val SA e))
    (r : Fin 512) (j : Fin 16) :
    View.canon ((⟨slab 2 inb2, w2⟩ : View.Piece Val SA e) :: ⟨slab 1 inb1, w1⟩ :: ⟨slab 0 inb0, w0⟩ :: T) (ix3 (2 : Fin 3) r j) = w2 (ix3 (0 : Fin 1) r j)
    ∧ View.canon ((⟨slab 2 inb2, w2⟩ : View.Piece Val SA e) :: ⟨slab 1 inb1, w1⟩ :: ⟨slab 0 inb0, w0⟩ :: T) (ix3 (1 : Fin 3) r j) = w1 (ix3 (0 : Fin 1) r j)
    ∧ View.canon ((⟨slab 2 inb2, w2⟩ : View.Piece Val SA e) :: ⟨slab 1 inb1, w1⟩ :: ⟨slab 0 inb0, w0⟩ :: T) (ix3 (0 : Fin 3) r j) = w0 (ix3 (0 : Fin 1) r j) := by
  refine ⟨?_, ?_, ?_⟩
  · show View.canon _ (ix3 (⟨2, by decide⟩ : Fin 3) r j) = _
    rw [← slab_emb 2 (by decide) inb2 r j]; exact View.canon_cons_emb _ _ _ _
  · rw [View.canon_cons_of_not_mem _ _ (fun h => by
      have := (mem_slab_iff 2 inb2 (1 : Fin 3) r j).mp h; exact absurd this (by decide))]
    show View.canon _ (ix3 (⟨1, by decide⟩ : Fin 3) r j) = _
    rw [← slab_emb 1 (by decide) inb1 r j]
    exact View.canon_cons_emb _ _ _ _
  · rw [View.canon_cons_of_not_mem _ _ (fun h => by
      have := (mem_slab_iff 2 inb2 (0 : Fin 3) r j).mp h; exact absurd this (by decide)),
      View.canon_cons_of_not_mem _ _ (fun h => by
      have := (mem_slab_iff 1 inb1 (0 : Fin 3) r j).mp h; exact absurd this (by decide))]
    show View.canon _ (ix3 (⟨0, by decide⟩ : Fin 3) r j) = _
    rw [← slab_emb 0 (by decide) inb0 r j]
    exact View.canon_cons_emb _ _ _ _

/-- A load of slab 0 after one whole-block store reads that store. -/
theorem readCov0 {sig : RefSig} {κ : Kind} {sp : Space} (v : View sig κ sp SA e)
    (inbW : ∀ a, (![0, 0, 0] : Fin 3 → ℕ) a + (![3, 512, 16] : Fin 3 → ℕ) a ≤ SA.size a) (wW : SA.Idx → Val e)
    (inb0 : ∀ a, (![0, 0, 0] : Fin 3 → ℕ) a + (![1, 512, 16] : Fin 3 → ℕ) a ≤ SA.size a)
    (r : Fin 512) (j : Fin 16) :
    v.readCov [(⟨Rect.unit (s := SA) ![0, 0, 0] ![3, 512, 16] inbW, wW⟩ : View.Piece Val SA e)] (slab 0 inb0).toLoadRect (ix3 (0 : Fin 1) r j)
      = wW (ix3 (0 : Fin 3) r j) := by
  have hz : (![0, 0, 0] : Fin 3 → ℕ) = fun _ => 0 := funext fun a => by fin_cases a <;> rfl
  rw [View.readCov_eq_canon_ld _ _ _ (fun y => ⟨_, List.mem_singleton_self _, View.mem_set_unit_zero hz inbW y⟩)]
  show View.ld (View.canon _) (slab 0 inb0) (ix3 (0 : Fin 1) r j) = _
  rw [ld_slab _ 0 (by decide)]
  exact congrFun (View.canon_unit_zero hz inbW wW) _

/-- A load of slab 1 after a whole-block store and a store into slab 0 reads the whole-block store. -/
theorem readCov1 {sig : RefSig} {κ : Kind} {sp : Space} (v : View sig κ sp SA e)
    (inbW : ∀ a, (![0, 0, 0] : Fin 3 → ℕ) a + (![3, 512, 16] : Fin 3 → ℕ) a ≤ SA.size a) (wW : SA.Idx → Val e)
    (inb0 : ∀ a, (![0, 0, 0] : Fin 3 → ℕ) a + (![1, 512, 16] : Fin 3 → ℕ) a ≤ SA.size a) (w0 : SB.Idx → Val e)
    (inb1 : ∀ a, (![1, 0, 0] : Fin 3 → ℕ) a + (![1, 512, 16] : Fin 3 → ℕ) a ≤ SA.size a)
    (r : Fin 512) (j : Fin 16) :
    v.readCov [(⟨slab 0 inb0, w0⟩ : View.Piece Val SA e), ⟨Rect.unit (s := SA) ![0, 0, 0] ![3, 512, 16] inbW, wW⟩] (slab 1 inb1).toLoadRect (ix3 (0 : Fin 1) r j)
      = wW (ix3 (1 : Fin 3) r j) := by
  have hz : (![0, 0, 0] : Fin 3 → ℕ) = fun _ => 0 := funext fun a => by fin_cases a <;> rfl
  rw [View.readCov_eq_canon_ld _ _ _ (fun y => ⟨_, List.mem_cons_of_mem _ (List.mem_singleton_self _), View.mem_set_unit_zero hz inbW y⟩)]
  show View.ld (View.canon _) (slab 1 inb1) (ix3 (0 : Fin 1) r j) = _
  rw [ld_slab _ 1 (by decide), View.canon_cons_of_not_mem _ _ (fun h => by
      have := (mem_slab_iff 0 inb0 (⟨1, by decide⟩ : Fin 3) r j).mp h; exact absurd this (by decide))]
  exact congrFun (View.canon_unit_zero hz inbW wW) _

/-- A load of slab 2 after a whole-block store and stores into slabs 0 and 1 reads the whole-block store. -/
theorem readCov2 {sig : RefSig} {κ : Kind} {sp : Space} (v : View sig κ sp SA e)
    (inbW : ∀ a, (![0, 0, 0] : Fin 3 → ℕ) a + (![3, 512, 16] : Fin 3 → ℕ) a ≤ SA.size a) (wW : SA.Idx → Val e)
    (inb0 : ∀ a, (![0, 0, 0] : Fin 3 → ℕ) a + (![1, 512, 16] : Fin 3 → ℕ) a ≤ SA.size a) (w0 : SB.Idx → Val e)
    (inb1 : ∀ a, (![1, 0, 0] : Fin 3 → ℕ) a + (![1, 512, 16] : Fin 3 → ℕ) a ≤ SA.size a) (w1 : SB.Idx → Val e)
    (inb2 : ∀ a, (![2, 0, 0] : Fin 3 → ℕ) a + (![1, 512, 16] : Fin 3 → ℕ) a ≤ SA.size a)
    (r : Fin 512) (j : Fin 16) :
    v.readCov [(⟨slab 1 inb1, w1⟩ : View.Piece Val SA e), ⟨slab 0 inb0, w0⟩, ⟨Rect.unit (s := SA) ![0, 0, 0] ![3, 512, 16] inbW, wW⟩] (slab 2 inb2).toLoadRect (ix3 (0 : Fin 1) r j)
      = wW (ix3 (2 : Fin 3) r j) := by
  have hz : (![0, 0, 0] : Fin 3 → ℕ) = fun _ => 0 := funext fun a => by fin_cases a <;> rfl
  rw [View.readCov_eq_canon_ld _ _ _ (fun y => ⟨_, List.mem_cons_of_mem _ (List.mem_cons_of_mem _ (List.mem_singleton_self _)), View.mem_set_unit_zero hz inbW y⟩)]
  show View.ld (View.canon _) (slab 2 inb2) (ix3 (0 : Fin 1) r j) = _
  rw [ld_slab _ 2 (by decide), View.canon_cons_of_not_mem _ _ (fun h => by
      have := (mem_slab_iff 1 inb1 (⟨2, by decide⟩ : Fin 3) r j).mp h; exact absurd this (by decide)),
    View.canon_cons_of_not_mem _ _ (fun h => by
      have := (mem_slab_iff 0 inb0 (⟨2, by decide⟩ : Fin 3) r j).mp h; exact absurd this (by decide))]
  exact congrFun (View.canon_unit_zero hz inbW wW) _

/-- Every entry of the block lies in one of the three slabs. -/
theorem slabs_cover (inb0 inb1 inb2) (w0 w1 w2 : SB.Idx → Val e) (T : List (View.Piece Val SA e)) (y : SA.Idx) :
    ∃ p ∈ ((⟨slab 2 inb2, w2⟩ : View.Piece Val SA e) :: ⟨slab 1 inb1, w1⟩ :: ⟨slab 0 inb0, w0⟩ :: T), y ∈ p.1.set := by
  obtain ⟨k, r, j, rfl⟩ : ∃ (k : Fin 3) (r : Fin 512) (j : Fin 16), y = ix3 k r j := ⟨y 0, y 1, y 2, eq_ix3 y⟩
  match k with
  | ⟨0, _⟩ => exact ⟨_, List.mem_cons_of_mem _ (List.mem_cons_of_mem _ (List.mem_cons_self ..)), (mem_slab_iff 0 inb0 _ r j).mpr rfl⟩
  | ⟨1, _⟩ => exact ⟨_, List.mem_cons_of_mem _ (List.mem_cons_self ..), (mem_slab_iff 1 inb1 _ r j).mpr rfl⟩
  | ⟨2, _⟩ => exact ⟨_, List.mem_cons_self .., (mem_slab_iff 2 inb2 _ r j).mpr rfl⟩

end Cert.Slabs

end
-- ==== Proof.Step.lean ====
/-
One grid point of the accumulation, in closed form at the exact values.

With X0, X1 the two 512×1360 input blocks, X2 the 1360×32 selector block (columns 0..15 sum a
group's channels, columns 16..31 pick a group's channel 0) and XO the accumulator block before the
point, the body leaves XO(k, r, j) + term_k(r, j) at (k, r, j); at the first point XO is the zero block.
-/
import proofs.«125290_g9715216024200_cont_9to1_m_804_10_alg».proof.Proof.BodyRunB
import proofs.«125290_g9715216024200_cont_9to1_m_804_10_alg».proof.Proof.Payload
import proofs.«125290_g9715216024200_cont_9to1_m_804_10_alg».proof.Proof.LibSlabs

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
variable {F : FTy → Type} [FloatOps F]

local notation "𝕄" => MT nD τ sig Unit (Elt F) ℕ (UR sig nD τ) ℕ

/-- The selector block's two column bands. -/
abbrev Rlo : Rect S1360x32 := Rect.unit (s := S1360x32) ![0, 0] S1360x16.size inb_S1360x32_S1360x16_0_0
abbrev Rhi : Rect S1360x32 := Rect.unit (s := S1360x32) ![0, 16] S1360x16.size inb_S1360x32_S1360x16_0_16

/-- The selector block's summing columns and picking columns. -/
def Slo (X2 : S1360x32.Idx → EReal) : S1360x16.Idx → EReal := fun x => X2 (Rlo.idx x)
def Shi (X2 : S1360x32.Idx → EReal) : S1360x16.Idx → EReal := fun x => X2 (Rhi.idx x)

/-- The term added to slab `k` at (r, j). -/
def termAt (i : grid0.Coords) (X0 X1 : S512x1360.Idx → EReal) (Slo Shi : S1360x16.Idx → EReal)
    (k : Fin 3) (r : Fin 512) (j : Fin 16) : EReal :=
  if k.val = 0 then term0 i X0 X1 Slo Shi r j else if k.val = 1 then term1 i X0 X1 Slo Shi r j else term2 i X0 Shi r j

/-- The accumulator block after a point, from the block before it. -/
def stepArr (i : grid0.Coords) (X0 X1 : S512x1360.Idx → EReal) (X2 : S1360x32.Idx → EReal) (XO : S3x512x16.Idx → EReal) :
    S3x512x16.Idx → EReal :=
  fun y => XO (ix3 (y 0) (y 1) (y 2)) + termAt i X0 X1 (Slo X2) (Shi X2) (y 0) (y 1) (y 2)

theorem stepArr_apply (i : grid0.Coords) (X0 X1 : S512x1360.Idx → EReal) (X2 : S1360x32.Idx → EReal) (XO : S3x512x16.Idx → EReal)
    (k : Fin 3) (r : Fin 512) (j : Fin 16) :
    stepArr i X0 X1 X2 XO (ix3 k r j) = XO (ix3 k r j) + termAt i X0 X1 (Slo X2) (Shi X2) k r j := rfl

set_option maxHeartbeats 1000000 in
/-- A later point: the stores' pieces, read back, are the step from the block found. -/
theorem later_canon (c : Dev nD) (i : grid0.Coords)
    (arg1 : Memref sig .tc .vmem S512x1360 .f32) (harg1 : arg1.IsWhole)
    (arg2 : Memref sig .tc .vmem S512x1360 .f32) (harg2 : arg2.IsWhole)
    (arg3 : Memref sig .tc .vmem S1360x32 .f32) (harg3 : arg3.IsWhole)
    (arg4 : Memref sig .tc .vmem S3x512x16 .f32) (harg4 : arg4.IsWhole) (hc0 : ¬isFirst i)
    (x0 x1 : Vec Ideal S512x1360 .f32) (x2 : Vec Ideal S1360x32 .f32) (xo : Vec Ideal S3x512x16 .f32) :
    View.canon (runLater (F := Ideal) c i arg1 harg1 arg2 harg2 arg3 harg3 arg4 harg4 hc0 x0 x1 x2 xo).1
      = stepArr i x0 x1 x2 xo := by
  funext y
  obtain ⟨k, r, j, rfl⟩ : ∃ (k : Fin 3) (r : Fin 512) (j : Fin 16), y = ix3 k r j := ⟨y 0, y 1, y 2, eq_ix3 y⟩
  have hz2 : (![0, 0] : Fin 2 → Nat) = fun _ => 0 := funext fun a => by fin_cases a <;> rfl
  rw [stepArr_apply]
  unfold runLater
  dsimp only
  sl_unfold_words
  simp only [View.readAt_eq_ld, harg1.read_unread, harg2.read_unread, harg3.read_unread, harg4.read_unread,
    View.ld_unit_zero (S := S512x1360) hz2]
  match k with
  | ⟨0, _⟩ =>
    refine (Cert.Slabs.canon_slabs _ _ _ _ _ _ [] r j).2.2.trans ?_
    rw [pay1_apply, pay14_apply]
    exact congrArg (· + _) (Cert.Slabs.ld_slab xo 0 (by decide) _ r j)
  | ⟨1, _⟩ =>
    refine (Cert.Slabs.canon_slabs _ _ _ _ _ _ [] r j).2.1.trans ?_
    rw [pay2_apply]
    exact congrArg (· + _) (Cert.Slabs.ld_slab xo 1 (by decide) _ r j)
  | ⟨2, _⟩ =>
    refine (Cert.Slabs.canon_slabs _ _ _ _ _ _ [] r j).1.trans ?_
    rw [pay3_apply]
    exact congrArg (· + _) (Cert.Slabs.ld_slab xo 2 (by decide) _ r j)

set_option maxHeartbeats 1000000 in
/-- The first point: the same step from the zero block. -/
theorem first_canon (c : Dev nD) (i : grid0.Coords)
    (arg1 : Memref sig .tc .vmem S512x1360 .f32) (harg1 : arg1.IsWhole)
    (arg2 : Memref sig .tc .vmem S512x1360 .f32) (harg2 : arg2.IsWhole)
    (arg3 : Memref sig .tc .vmem S1360x32 .f32) (harg3 : arg3.IsWhole)
    (arg4 : Memref sig .tc .vmem S3x512x16 .f32) (harg4 : arg4.IsWhole) (hc0 : isFirst i)
    (x0 x1 : Vec Ideal S512x1360 .f32) (x2 : Vec Ideal S1360x32 .f32) :
    View.canon (runFirst (F := Ideal) c i arg1 harg1 arg2 harg2 arg3 harg3 arg4 harg4 hc0 x0 x1 x2).1
      = stepArr i x0 x1 x2 (k0_pay4 (F := Ideal)) := by
  funext y
  obtain ⟨k, r, j, rfl⟩ : ∃ (k : Fin 3) (r : Fin 512) (j : Fin 16), y = ix3 k r j := ⟨y 0, y 1, y 2, eq_ix3 y⟩
  have hz2 : (![0, 0] : Fin 2 → Nat) = fun _ => 0 := funext fun a => by fin_cases a <;> rfl
  rw [stepArr_apply]
  unfold runFirst
  dsimp only
  sl_unfold_words
  simp only [View.readAt_eq_ld, harg1.read_unread, harg2.read_unread, harg3.read_unread, harg4.read_unread,
    View.ld_unit_zero (S := S512x1360) hz2]
  match k with
  | ⟨0, _⟩ =>
    refine (Cert.Slabs.canon_slabs _ _ _ _ _ _ _ r j).2.2.trans ?_
    rw [pay1_apply, pay14_apply]
    exact congrArg (· + _) (Cert.Slabs.readCov0 _ _ _ _ r j)
  | ⟨1, _⟩ =>
    refine (Cert.Slabs.canon_slabs _ _ _ _ _ _ _ r j).2.1.trans ?_
    rw [pay2_apply]
    exact congrArg (· + _) (Cert.Slabs.readCov1 _ _ _ _ _ _ r j)
  | ⟨2, _⟩ =>
    refine (Cert.Slabs.canon_slabs _ _ _ _ _ _ _ r j).1.trans ?_
    rw [pay3_apply]
    exact congrArg (· + _) (Cert.Slabs.readCov2 _ _ _ _ _ _ _ _ r j)

end Cert.KernelIdeal.Val

end
-- ==== Proof.ValueDat.lean ====
/-
The accumulation over the 84 grid points, at the exact values.

The two input windows' last block overhangs the 42588-row array: there the fetch fills only the
block's first 92 rows and the rest of the staging buffer holds words nothing names. The body's
masks discard exactly those rows, so what it adds to the accumulator does not depend on them: the
accumulator after point t is a function of the argument arrays alone (`accAt`).
-/
import proofs.«125290_g9715216024200_cont_9to1_m_804_10_alg».proof.Proof.Step
import proofs.«125290_g9715216024200_cont_9to1_m_804_10_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The grid: coordinates and the cut of the overhanging block -/

theorem coord_val : ∀ t : Fin cfg0.N, ((grid0.coords t) 0).val = t.val :=
  (by decide +kernel : ∀ t : Fin grid0.N, ((grid0.coords t) 0).val = t.val)

/-- The fetch of block `t` moves its rows inside the array: all 512, or the last block's 92. -/
theorem xs0_0 : ∀ t : Fin cfg0.N, win0_0.xsize (grid0.coords t) (0 : Fin 2) = min 512 (42588 - 512 * t.val) :=
  (by decide +kernel : ∀ t : Fin grid0.N, win0_0.xsize (grid0.coords t) (0 : Fin 2) = min 512 (42588 - 512 * t.val))
theorem xs0_1 : ∀ t : Fin cfg0.N, win0_0.xsize (grid0.coords t) (1 : Fin 2) = 1360 :=
  (by decide +kernel : ∀ t : Fin grid0.N, win0_0.xsize (grid0.coords t) (1 : Fin 2) = 1360)
theorem xs1_0 : ∀ t : Fin cfg0.N, win0_1.xsize (grid0.coords t) (0 : Fin 2) = min 512 (42588 - 512 * t.val) :=
  (by decide +kernel : ∀ t : Fin grid0.N, win0_1.xsize (grid0.coords t) (0 : Fin 2) = min 512 (42588 - 512 * t.val))
theorem xs1_1 : ∀ t : Fin cfg0.N, win0_1.xsize (grid0.coords t) (1 : Fin 2) = 1360 :=
  (by decide +kernel : ∀ t : Fin grid0.N, win0_1.xsize (grid0.coords t) (1 : Fin 2) = 1360)

/-- A block row is moved by the fetch exactly when it is a row of the array. -/
theorem moved0 (t : Fin cfg0.N) (r : Fin 512) (e : Fin 1360) :
    win0_0.moved (grid0.coords t) (ix2 r e) = true ↔ inArr (grid0.coords t) r := by
  rw [Pipeline.Window.moved_iff]
  unfold inArr
  rw [coord_val]
  constructor
  · intro h
    have h0 := h (0 : Fin 2)
    rw [xs0_0] at h0
    have e0 : ((ix2 r e : (⟨2, ![512, 1360]⟩ : Shape).Idx) (0 : Fin 2)).val = r.val := rfl
    have h0' : r.val < min 512 (42588 - 512 * t.val) := h0
    omega
  · intro h a
    match a with
    | ⟨0, _⟩ =>
      show r.val < win0_0.xsize (grid0.coords t) (0 : Fin 2)
      rw [xs0_0]; have := r.isLt; omega
    | ⟨1, _⟩ =>
      show e.val < win0_0.xsize (grid0.coords t) (1 : Fin 2)
      rw [xs0_1]; exact e.isLt

theorem moved1 (t : Fin cfg0.N) (r : Fin 512) (e : Fin 1360) :
    win0_1.moved (grid0.coords t) (ix2 r e) = true ↔ inArr (grid0.coords t) r := by
  rw [Pipeline.Window.moved_iff]
  unfold inArr
  rw [coord_val]
  constructor
  · intro h
    have h0 := h (0 : Fin 2)
    rw [xs1_0] at h0
    have h0' : r.val < min 512 (42588 - 512 * t.val) := h0
    omega
  · intro h a
    match a with
    | ⟨0, _⟩ =>
      show r.val < win0_1.xsize (grid0.coords t) (0 : Fin 2)
      rw [xs1_0]; have := r.isLt; omega
    | ⟨1, _⟩ =>
      show e.val < win0_1.xsize (grid0.coords t) (1 : Fin 2)
      rw [xs1_1]; exact e.isLt

/-- On a row of the array the staging buffer holds the fetched block, whatever filled the rest. -/
theorem fill0_row (t : Fin cfg0.N) (d d' : S512x1360.Idx → EReal) (B : (win0_0.xblock (grid0.coords t)).Idx → EReal)
    (r : Fin 512) (e : Fin 1360) (h : inArr (grid0.coords t) r) :
    win0_0.fill (grid0.coords t) d B (ix2 r e) = win0_0.fill (grid0.coords t) d' B (ix2 r e) := by
  have hm := (moved0 t r e).mpr h
  unfold Pipeline.Window.fill
  rw [dif_pos hm, dif_pos hm]

theorem fill1_row (t : Fin cfg0.N) (d d' : S512x1360.Idx → EReal) (B : (win0_1.xblock (grid0.coords t)).Idx → EReal)
    (r : Fin 512) (e : Fin 1360) (h : inArr (grid0.coords t) r) :
    win0_1.fill (grid0.coords t) d B (ix2 r e) = win0_1.fill (grid0.coords t) d' B (ix2 r e) := by
  have hm := (moved1 t r e).mpr h
  unfold Pipeline.Window.fill
  rw [dif_pos hm, dif_pos hm]

/-- The terms a point adds do not depend on what the staging buffers hold past the array's end: on a
    row of the array they read the fetched block, and on any other row both masks are off. -/
theorem termAt_indep (t : Fin cfg0.N) (d0 d0' d1 d1' : S512x1360.Idx → EReal)
    (B0 : (win0_0.xblock (grid0.coords t)).Idx → EReal) (B1 : (win0_1.xblock (grid0.coords t)).Idx → EReal)
    (Slo Shi : S1360x16.Idx → EReal) (k : Fin 3) (r : Fin 512) (j : Fin 16) :
    termAt (grid0.coords t) (win0_0.fill (grid0.coords t) d0 B0) (win0_1.fill (grid0.coords t) d1 B1) Slo Shi k r j
      = termAt (grid0.coords t) (win0_0.fill (grid0.coords t) d0' B0) (win0_1.fill (grid0.coords t) d1' B1) Slo Shi k r j := by
  by_cases h : inArr (grid0.coords t) r
  · have hx : ∀ e, win0_0.fill (grid0.coords t) d0 B0 (ix2 r e) = win0_0.fill (grid0.coords t) d0' B0 (ix2 r e) :=
      fun e => fill0_row t d0 d0' B0 r e h
    have hy : ∀ e, win0_1.fill (grid0.coords t) d1 B1 (ix2 r e) = win0_1.fill (grid0.coords t) d1' B1 (ix2 r e) :=
      fun e => fill1_row t d1 d1' B1 r e h
    unfold termAt term0 term1 term2 hbit
    simp only [hx, hy]
  · have hd : decide (inArr (grid0.coords t) r) = false := decide_eq_false h
    have ha : ∀ x : BitVec 1, IntOp.andi x (BitVec.ofBool false) = 0#1 := by decide
    have hb : BitVec.ofBool false = 0#1 := rfl
    have ha0 : ∀ x : BitVec 1, IntOp.andi x 0#1 = 0#1 := by decide
    unfold termAt term0 term1 term2 hbit
    simp only [hd, ha, hb, ha0, select_zero]

theorem stepArr_indep (t : Fin cfg0.N) (d0 d0' d1 d1' : S512x1360.Idx → EReal)
    (B0 : (win0_0.xblock (grid0.coords t)).Idx → EReal) (B1 : (win0_1.xblock (grid0.coords t)).Idx → EReal)
    (X2 : S1360x32.Idx → EReal) (XO : S3x512x16.Idx → EReal) :
    stepArr (grid0.coords t) (win0_0.fill (grid0.coords t) d0 B0) (win0_1.fill (grid0.coords t) d1 B1) X2 XO
      = stepArr (grid0.coords t) (win0_0.fill (grid0.coords t) d0' B0) (win0_1.fill (grid0.coords t) d1' B1) X2 XO := by
  funext y
  unfold stepArr
  exact congrArg (XO _ + ·) (termAt_indep t d0 d0' d1 d1' B0 B1 _ _ _ _ _)

/-! ## The proof data -/

/-- The input blocks at point `t`, zero past the array's end; the selector block. -/
def xblk (c : Dev nD) (t : Fin cfg0.N) : S512x1360.Idx → EReal :=
  win0_0.fill (grid0.coords t) (fun _ => (0 : EReal)) (iblk m c 0 t)
def yblk (c : Dev nD) (t : Fin cfg0.N) : S512x1360.Idx → EReal :=
  win0_1.fill (grid0.coords t) (fun _ => (0 : EReal)) (iblk m c 1 t)
def sblk (c : Dev nD) (t : Fin cfg0.N) : S1360x32.Idx → EReal := iblk m c 2 t

/-- The accumulator block after point `n`. -/
def accAt (c : Dev nD) : (n : ℕ) → n < cfg0.N → (S3x512x16.Idx → EReal)
  | 0, h => stepArr (grid0.coords ⟨0, h⟩) (xblk m c ⟨0, h⟩) (yblk m c ⟨0, h⟩) (sblk m c ⟨0, h⟩) (k0_pay4 (F := Ideal))
  | n + 1, h => stepArr (grid0.coords ⟨n + 1, h⟩) (xblk m c ⟨n + 1, h⟩) (yblk m c ⟨n + 1, h⟩) (sblk m c ⟨n + 1, h⟩)
      (accAt c n (Nat.lt_of_succ_lt h))

theorem accAt_zero (c : Dev nD) (t : Fin cfg0.N) (h0 : t.val = 0) :
    accAt m c t.val t.isLt = stepArr (grid0.coords t) (xblk m c t) (yblk m c t) (sblk m c t) (k0_pay4 (F := Ideal)) := by
  obtain ⟨n, hn⟩ := t
  cases n with
  | zero => rfl
  | succ n => exact absurd h0 (Nat.succ_ne_zero n)

theorem accAt_succ (c : Dev nD) (t : Fin cfg0.N) (h0 : ¬t.val = 0) :
    accAt m c t.val t.isLt = stepArr (grid0.coords t) (xblk m c t) (yblk m c t) (sblk m c t)
      (accAt m c (t.val - 1) (Nat.lt_of_le_of_lt (Nat.sub_le _ _) t.isLt)) := by
  obtain ⟨n, hn⟩ := t
  cases n with
  | zero => exact absurd rfl h0
  | succ n => rfl

/-- The pipeline's proof data on core `c`. -/
def dats (_ : Fin 1) (c : Dev nD) : Dat τ (Elt Ideal) Unit ℕ (UR sig nD τ) ℕ cfg0 c where
  A w := V m c (Pipeline.arrRef spec0 w)
  after w t := match w with
    | ⟨0, _⟩ => xblk m c t
    | ⟨1, _⟩ => yblk m c t
    | ⟨2, _⟩ => iblk m c 2 t
    | ⟨3, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xblk m c t := by dsimp only [dats]
theorem after_1 (c : Dev nD) (t : Fin cfg0.N) : (dats m 0 c).after 1 t = yblk m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = accAt m c t.val t.isLt := by dsimp only [dats]

/-- What the body finds: the two clipped inputs just fetched — the block on the rows inside the array,
    anything elsewhere; -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl
/-- the selector block, fetched once and left in place; -/
theorem before_2 (c : Dev nD) (t : Fin cfg0.N) (d) : (dats m 0 c).before 2 t d = iblk m c 2 t :=
  before0_2_of m (dats m 0 c) (A_eq m c 2) (after_2 m c) t d
/-- and, after the first point, the accumulator as the point before left it (it is written back only at the end). -/
theorem before_3 (c : Dev nD) (t : Fin cfg0.N) (h0 : ¬t.val = 0) (d) :
    (dats m 0 c).before 3 t d = accAt m c (t.val - 1) (Nat.lt_of_le_of_lt (Nat.sub_le _ _) t.isLt) := by
  have hN : t.val < 84 := lt_of_lt_of_eq t.isLt (show cfg0.N = 84 from N_0)
  rw [Dat.before_out_kept _ 3 rfl t (by omega) (Bool.eq_false_iff.mpr fun h => by have := (flush0_3 _).mp h; dsimp only at this; omega)
    (fun _ => rfl) (fun _ _ => rfl)]
  dsimp only [dats]

end Cert.KernelIdeal.Val

end
-- ==== Proof.ValueRun.lean ====
/-
The kernel's run at the exact values: at every grid point the body takes the accumulator from
`accAt (t − 1)` (or clears it, at the first point) to `accAt t`, whatever the clipped staging buffers
hold past the array's end; so the run ends with every array of the pipeline at what the proof data says.
-/
import proofs.«125290_g9715216024200_cont_9to1_m_804_10_alg».proof.Proof.ValueDat

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The staging memrefs the body is called with at point `t`. -/
abbrev ms0 (t : Fin cfg0.N) : Memref sig .tc .vmem S512x1360 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1360 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1360x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S3x512x16 .f32 := win0_3.stage (cfg0.slots t 3)
abbrev hs3 (t : Fin cfg0.N) : (ms3 t).IsWhole := hstage0_3 ((cfg0.slots t 3).cast nbuf0_3)

/-- The three slab stores cover the accumulator block. -/
theorem first_cover (c : Dev nD) (i : grid0.Coords)
    (arg1 : Memref sig .tc .vmem S512x1360 .f32) (harg1 : arg1.IsWhole)
    (arg2 : Memref sig .tc .vmem S512x1360 .f32) (harg2 : arg2.IsWhole)
    (arg3 : Memref sig .tc .vmem S1360x32 .f32) (harg3 : arg3.IsWhole)
    (arg4 : Memref sig .tc .vmem S3x512x16 .f32) (harg4 : arg4.IsWhole) (hc0 : isFirst i)
    (x0 x1 : Vec Ideal S512x1360 .f32) (x2 : Vec Ideal S1360x32 .f32) (y : S3x512x16.Idx) :
    ∃ pc ∈ (runFirst (F := Ideal) c i arg1 harg1 arg2 harg2 arg3 harg3 arg4 harg4 hc0 x0 x1 x2).1, y ∈ pc.1.set := by
  unfold runFirst
  dsimp only
  exact Cert.Slabs.slabs_cover _ _ _ _ _ _ _ y

theorem later_cover (c : Dev nD) (i : grid0.Coords)
    (arg1 : Memref sig .tc .vmem S512x1360 .f32) (harg1 : arg1.IsWhole)
    (arg2 : Memref sig .tc .vmem S512x1360 .f32) (harg2 : arg2.IsWhole)
    (arg3 : Memref sig .tc .vmem S1360x32 .f32) (harg3 : arg3.IsWhole)
    (arg4 : Memref sig .tc .vmem S3x512x16 .f32) (harg4 : arg4.IsWhole) (hc0 : ¬isFirst i)
    (x0 x1 : Vec Ideal S512x1360 .f32) (x2 : Vec Ideal S1360x32 .f32) (xo : Vec Ideal S3x512x16 .f32) (y : S3x512x16.Idx) :
    ∃ pc ∈ (runLater (F := Ideal) c i arg1 harg1 arg2 harg2 arg3 harg3 arg4 harg4 hc0 x0 x1 x2 xo).1, y ∈ pc.1.set := by
  unfold runLater
  dsimp only
  exact Cert.Slabs.slabs_cover _ _ _ _ _ _ _ y

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns: the two clipped inputs stated on the rows inside the array only. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ (∃ d, owns (c : Thread nD τ) (ms1 t) fullShare (win0_1.fill (grid0.coords t) d (win0_1.cut (grid0.coords t) ((dats m 0 c).after 1 t))))
    ∗ owns (c : Thread nD τ) (ms2 t) fullShare ((dats m 0 c).after 2 t)
    ∗ owns (c : Thread nD τ) (ms3 t) fullShare ((dats m 0 c).after 3 t))

set_option maxHeartbeats 2000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  have hx : win0_0.cut (grid0.coords t) (xblk m c t) = iblk m c 0 t := win0_0.cut_fill _ _ _
  have hy : win0_1.cut (grid0.coords t) (yblk m c t) = iblk m c 1 t := win0_1.cut_fill _ _ _
  rw [hx, hy]
  by_cases h0 : t.val = 0
  · rw [accAt_zero m c t h0]
    iintro ⟨HΦ, Ho, ⟨%d0, H0⟩, ⟨%d1, H1⟩, ⟨%d2, H2⟩, ⟨%d3, H3⟩⟩
    iapply ((runFirst (F := Ideal) c (grid0.coords t) _ (hs0 t) _ (hs1 t) _ (hs2 t) _ (hs3 t) ((isFirst_iff t).mpr h0)
      (win0_0.fill (grid0.coords t) d0 (iblk m c 0 t)) (win0_1.fill (grid0.coords t) d1 (iblk m c 1 t)) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexists d0; iexact H0
    isplitl [H1]; · iexists d1; iexact H1
    isplitl [H2]; · iexact H2
    unfold owns; iexists _; isplitr
    swap; · iexact H3
    ipureintro
    exact (View.read_writes_eq_canon _ _ _ (first_cover c _ _ _ _ _ _ _ _ _ _ _ _ _)).trans
      ((first_canon c _ _ _ _ _ _ _ _ _ _ _ _ _).trans
        (stepArr_indep t d0 (fun _ => 0) d1 (fun _ => 0) (iblk m c 0 t) (iblk m c 1 t) (iblk m c 2 t) _))
  · simp only [before_3 m c t h0]
    rw [accAt_succ m c t h0]
    iintro ⟨HΦ, Ho, ⟨%d0, H0⟩, ⟨%d1, H1⟩, ⟨%d2, H2⟩, ⟨%d3, H3⟩⟩
    iapply ((runLater (F := Ideal) c (grid0.coords t) _ (hs0 t) _ (hs1 t) _ (hs2 t) _ (hs3 t) (fun h => h0 ((isFirst_iff t).mp h))
      (win0_0.fill (grid0.coords t) d0 (iblk m c 0 t)) (win0_1.fill (grid0.coords t) d1 (iblk m c 1 t)) (iblk m c 2 t)
      (accAt m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexists d0; iexact H0
    isplitl [H1]; · iexists d1; iexact H1
    isplitl [H2]; · iexact H2
    unfold owns; iexists _; isplitr
    swap; · iexact H3
    ipureintro
    exact (View.read_writes_eq_canon _ _ _ (later_cover c _ _ _ _ _ _ _ _ _ _ _ _ _ _)).trans
      ((later_canon c _ _ _ _ _ _ _ _ _ _ _ _ _ _).trans
        (stepArr_indep t d0 (fun _ => 0) d1 (fun _ => 0) (iblk m c 0 t) (iblk m c 1 t) (iblk m c 2 t) _))

/-- The library's body obligation, at every point. -/
theorem body_obligation (c : Dev nD) : BodyObligationLoose (dats m 0 c) (defs₀ (F := Ideal)) Variants.none () Set.univ := fun t => by
  rw [bigSep_W0, bigSep_W0]
  exact sound_body m c t

set_option backward.isDefEq.respectTransparency.types false in
/-- Every weakly fair execution of @main terminates, with every array of the pipeline at what the proof data
    computes and every other buffer at what the host lines after the region leave. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Val

end
-- ==== Proof.ValueClosed.lean ====
/-
The accumulator in closed form.

Each grid point adds its term to every cell of the accumulator block, starting from the zero block.
So after point n the cell (k, r, j) holds the zero block's entry plus the sum of the terms of the
points 0, …, n, and after the last of the 84 points it holds 0 plus the sum over all 84 points.
-/
import proofs.«125290_g9715216024200_cont_9to1_m_804_10_alg».proof.Proof.ValueDat
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ)

/-- The term point t adds to cell (k, r, j). -/
def termT (c : Dev nD) (k : Fin 3) (t : Fin cfg0.N) (r : Fin 512) (j : Fin 16) : EReal :=
  termAt (grid0.coords t) (xblk m c t) (yblk m c t) (Slo (sblk m c t)) (Shi (sblk m c t)) k r j

/-- The grid has 84 points. -/
theorem lt84 (t : Fin 84) : t.val < cfg0.N :=
  lt_of_lt_of_eq t.isLt (show cfg0.N = 84 from N_0).symm

/-- After point n a cell holds the zero block's entry plus the terms of the points 0, …, n. -/
theorem acc_closed (c : Dev nD) (k : Fin 3) (r : Fin 512) (j : Fin 16) :
    ∀ (n : ℕ) (h : n < cfg0.N), accAt m c n h (ix3 k r j)
      = k0_pay4 (F := Ideal) (ix3 k r j)
        + ∑ t ∈ Finset.range (n + 1), (if ht : t < cfg0.N then termT m c k ⟨t, ht⟩ r j else 0) := by
  intro n
  induction n with
  | zero =>
    intro h
    rw [Finset.sum_range_one, dif_pos h]
    rfl
  | succ n ih =>
    intro h
    rw [Finset.sum_range_succ, dif_pos h, ← add_assoc, ← ih (Nat.lt_of_succ_lt h)]
    rfl

/-- After the last point a cell holds 0 plus the sum of the terms of all 84 points. -/
theorem acc_last (c : Dev nD) (h83 : 83 < cfg0.N) (k : Fin 3) (r : Fin 512) (j : Fin 16) :
    accAt m c 83 h83 (ix3 k r j) = (0 : EReal) + ∑ t : Fin 84, termT m c k ⟨t.val, lt84 t⟩ r j := by
  have hz : k0_pay4 (F := Ideal) (ix3 k r j) = (0 : EReal) := by
    show Ideal.ofBits .f32 0x00000000#32 = 0
    exact Ideal.ofBits_zero_f32
  rw [acc_closed m c k r j 83 h83, hz]
  show (0 : EReal) + ∑ t ∈ Finset.range 84, (if ht : t < cfg0.N then termT m c k ⟨t, ht⟩ r j else 0) = _
  rw [Finset.sum_range (fun t => if ht : t < cfg0.N then termT m c k ⟨t, ht⟩ r j else 0)]
  refine congrArg ((0 : EReal) + ·) (Finset.sum_congr rfl fun t _ => ?_)
  rw [dif_pos (lt84 t)]

end Cert.KernelIdeal.Val

end
-- ==== Proof.HostPrefix.lean ====
import proofs.«125290_g9715216024200_cont_9to1_m_804_10_alg».proof.Proof.Spec
import proofs.«125290_g9715216024200_cont_9to1_m_804_10_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

/-!
The three arrays the region reads, as the host operations before it leave them, read at an index: the two argument
arrays viewed as [42588, 1360], and the 0/1 selection matrix [1360, 32].
-/

set_option maxRecDepth 16384

noncomputable section

namespace Cert.KernelIdeal.Hand

open Cert.KernelIdeal.Gen
open Idealize.ShloMosaic Idealize.ShloMosaic.TcCoe Idealize.ShloMosaic.Tactic
open Idealize.ShloMosaic.StableHlo

variable (m : (ℓ : Loc nD τ sig) → Buf (Elt Ideal) ℓ) (c : Dev nD)

/-! ## The two reshaped arguments

Both argument arrays are [64, 10647, 85]; the program views each as [42588, 1360]: row `g` of the view is sixteen
consecutive data rows, `16 g … 16 g + 15`, laid side by side, so that column `e` is channel `e % 85` of data row
`16 g + e / 85`. -/

/-- The view at (g, e) is the array's entry (16 g + e / 85, e % 85): both have flat position 1360 g + e. -/
theorem reshape_cell (x : S64x10647x85.Idx → EReal) (g : Fin 42588) (e : Fin 1360) :
    shapeCast S42588x1360 x shapeCasts_S64x10647x85_S42588x1360 (ValueIdx.ix2 g e)
      = Cert.Mloss.cell x ⟨16 * g.val + e.val / 85, by omega⟩ ⟨e.val % 85, Nat.mod_lt _ (by norm_num)⟩ := by
  unfold Cert.Mloss.cell
  refine shapeCast_apply x shapeCasts_S64x10647x85_S42588x1360 (ValueIdx.ix2 g e) _ ?_
  rw [Shape.rowMajor_val_three, Shape.rowMajor_val_two]
  have hg := g.isLt
  have he := e.isLt
  show ((16 * g.val + e.val / 85) / 10647 * 10647 + (16 * g.val + e.val / 85) % 10647) * 85 + e.val % 85
    = g.val * 1360 + e.val
  omega

theorem V_v0_eq : (Gen.V m c main_v0 : S42588x1360.Idx → EReal)
    = shapeCast S42588x1360 (m ((c : Thread nD τ).loc main_arg0) : S64x10647x85.Idx → EReal) shapeCasts_S64x10647x85_S42588x1360 := by
  dsimp only [Gen.V, Gen.V0]
  simp only [Gen.hostOps0, Gen.hostOps0_1, Gen.hostOps0_2, List.flatten_cons, List.flatten_nil, List.append_nil, List.cons_append, List.nil_append]
  after_results
  rfl

theorem V_v1_eq : (Gen.V m c main_v1 : S42588x1360.Idx → EReal)
    = shapeCast S42588x1360 (m ((c : Thread nD τ).loc main_arg1) : S64x10647x85.Idx → EReal) shapeCasts_S64x10647x85_S42588x1360 := by
  dsimp only [Gen.V, Gen.V0]
  simp only [Gen.hostOps0, Gen.hostOps0_1, Gen.hostOps0_2, List.flatten_cons, List.flatten_nil, List.append_nil, List.cons_append, List.nil_append]
  after_results
  rfl

/-- The first argument's view, as the region finds it, at (g, e). -/
theorem V_v0_apply (g : Fin 42588) (e : Fin 1360) :
    (Gen.V m c main_v0 : S42588x1360.Idx → EReal) (ValueIdx.ix2 g e)
      = Cert.Mloss.cell (m ((c : Thread nD τ).loc main_arg0)) ⟨16 * g.val + e.val / 85, by omega⟩ ⟨e.val % 85, Nat.mod_lt _ (by norm_num)⟩ := by
  rw [V_v0_eq]
  exact reshape_cell _ g e

/-- The second argument's view, as the region finds it, at (g, e). -/
theorem V_v1_apply (g : Fin 42588) (e : Fin 1360) :
    (Gen.V m c main_v1 : S42588x1360.Idx → EReal) (ValueIdx.ix2 g e)
      = Cert.Mloss.cell (m ((c : Thread nD τ).loc main_arg1)) ⟨16 * g.val + e.val / 85, by omega⟩ ⟨e.val % 85, Nat.mod_lt _ (by norm_num)⟩ := by
  rw [V_v1_eq]
  exact reshape_cell _ g e

/-! ## The selection matrix

The third array is a 0/1 matrix [1360, 32]. Column `e` of a view row is channel `e % 85` of the `e / 85`-th of its
sixteen data rows: columns 0 … 15 of the matrix mark, for row `e`, which data row that is (`e / 85 = j`), and
columns 16 … 31 mark the columns that are channel 0 of data row `j` (`e = 85 j`). The program computes `e / 85`
by its floor-division function over 32-bit words. -/

/-- The sign of a word as a word: 0, −1 or 1. -/
def sgn (x : BitVec 32) : BitVec 32 := if x = 0 then 0 else if x.msb then -1 else 1

/-- Floor division of words as the program computes it: the quotient rounded toward zero, less one when the
    operands' signs differ and the remainder is not zero. -/
def fdWord (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

/-- The bit of column `j` (first half) in row `e`: is the floor quotient of `e` by 85 equal to `j`. -/
def bitSum (e : Fin 1360) (j : Fin 16) : BitVec 1 :=
  IntOp.cmpi .eq (fdWord (BitVec.ofNat 32 e.val) 85#32) (BitVec.ofNat 32 j.val)

/-- The bit of column `16 + j` in row `e`: is `e` equal to `j · 85`. -/
def bitPick (e : Fin 1360) (j : Fin 16) : BitVec 1 :=
  IntOp.cmpi .eq (BitVec.ofNat 32 e.val) (IntOp.muli (BitVec.ofNat 32 j.val) 85#32)

/-- On rows below 1360 the word floor division by 85 is the natural-number quotient: all 21760 entries decided. -/
theorem bitSum_eq : ∀ e : Fin 1360, ∀ j : Fin 16, bitSum e j = BitVec.ofBool (decide (e.val / 85 = j.val)) := by
  decide +kernel

/-- The word product `j · 85` does not wrap: all 21760 entries decided. -/
theorem bitPick_eq : ∀ e : Fin 1360, ∀ j : Fin 16, bitPick e j = BitVec.ofBool (decide (e.val = 85 * j.val)) := by
  decide +kernel

/-- Row numbers 0 … 1359 as words, one column. -/
def rowIx : IVec S1360x1 32 := broadcastInDim S1360x1 ![0] bcast_S1360_S1360x1_0 (iotaInDim S1360 32 0)

/-- Column numbers 0 … 15 as words, one row. -/
def colIx : IVec S1x16 32 := broadcastInDim S1x16 ![1] bcast_S16_S1x16_1 (iotaInDim S16 32 0)

/-- The program's floor division of a column of words by a scalar word. -/
def floorDiv (x : IVec S1360x1 32) (d : IVec S_ 32) : IVec S1360x1 32 :=
  select
    (andi (cmpi .ne (signi x) (broadcastInDim S1360x1 ![] bcast_S_S1360x1 (signi d)))
      (cmpi .ne (Host.remsi x (broadcastInDim S1360x1 ![] bcast_S_S1360x1 d))
        (broadcastInDim S1360x1 ![] bcast_S_S1360x1 (constantI S_ 32 0#32))))
    (subi (Host.divsi x (broadcastInDim S1360x1 ![] bcast_S_S1360x1 d))
      (broadcastInDim S1360x1 ![] bcast_S_S1360x1 (constantI S_ 32 1#32)))
    (Host.divsi x (broadcastInDim S1360x1 ![] bcast_S_S1360x1 d))

/-- The first sixteen columns' bits: floor quotient of the row number by 85 against the column number. -/
def sumBits : IVec S1360x16 1 :=
  cmpi .eq (broadcastInDim S1360x16 ![0, 1] bcast_S1360x1_S1360x16_0_1 (floorDiv rowIx (constantI S_ 32 85#32)))
    (broadcastInDim S1360x16 ![0, 1] bcast_S1x16_S1360x16_0_1 colIx)

/-- The last sixteen columns' bits: the row number against 85 times the column number. -/
def pickBits : IVec S1360x16 1 :=
  cmpi .eq (broadcastInDim S1360x16 ![0, 1] bcast_S1360x1_S1360x16_0_1 rowIx)
    (broadcastInDim S1360x16 ![0, 1] bcast_S1x16_S1360x16_0_1
      (muli colIx (broadcastInDim S1x16 ![] bcast_S_S1x16 (constantI S_ 32 85#32))))

/-- The selection matrix: the two blocks of bits as floats, side by side. -/
def selMat : FVec Ideal S1360x32 .f32 :=
  concatenate S1360x32 1 [⟨S1360x16, (uitofp .f32 sumBits : FVec Ideal S1360x16 .f32)⟩,
    ⟨S1360x16, (uitofp .f32 pickBits : FVec Ideal S1360x16 .f32)⟩] concatenates_S1360x16_S1360x16_S1360x32_d1

attribute [local irreducible] select andi cmpi signi subi muli Host.divsi Host.remsi broadcastInDim iotaInDim constantI
  uitofp concatenate in
set_option maxHeartbeats 1000000 in
/-- The region finds the selection matrix in the third array. -/
theorem V_v19_eq : (Gen.V m c main_v19 : S1360x32.Idx → EReal) = selMat := by
  dsimp only [Gen.V, Gen.V0]
  simp only [Gen.hostOps0, Gen.hostOps0_1, Gen.hostOps0_2, List.flatten_cons, List.flatten_nil, List.append_nil, List.cons_append, List.nil_append]
  after_results
  rfl

/-! ### The matrix entry by entry -/

/-- A scalar broadcast to the column reads the scalar. -/
theorem bcast_scalar_col {α : Type} (y : S_.Idx → α) (i : S1360x1.Idx) :
    broadcastInDim S1360x1 ![] bcast_S_S1360x1 y i = y ValueIdx.ix0 :=
  broadcastInDim_apply _ bcast_S_S1360x1 y i ValueIdx.ix0 (fun a => a.elim0)

/-- A scalar broadcast to the row reads the scalar. -/
theorem bcast_scalar_row {α : Type} (y : S_.Idx → α) (i : S1x16.Idx) :
    broadcastInDim S1x16 ![] bcast_S_S1x16 y i = y ValueIdx.ix0 :=
  broadcastInDim_apply _ bcast_S_S1x16 y i ValueIdx.ix0 (fun a => a.elim0)

/-- The column broadcast along the rows reads the column at the row. -/
theorem bcast_col_mat {α : Type} (y : S1360x1.Idx → α) (e : Fin 1360) (j : Fin 16) :
    broadcastInDim S1360x16 ![0, 1] bcast_S1360x1_S1360x16_0_1 y (ValueIdx.ix2 e j) = y (ValueIdx.ix2 e (0 : Fin 1)) :=
  broadcastInDim_apply _ bcast_S1360x1_S1360x16_0_1 y (ValueIdx.ix2 e j) (ValueIdx.ix2 e (0 : Fin 1))
    (fun a => match a with | ⟨0, _⟩ => rfl | ⟨1, _⟩ => rfl)

/-- The row broadcast down the columns reads the row at the column. -/
theorem bcast_row_mat {α : Type} (y : S1x16.Idx → α) (e : Fin 1360) (j : Fin 16) :
    broadcastInDim S1360x16 ![0, 1] bcast_S1x16_S1360x16_0_1 y (ValueIdx.ix2 e j) = y (ValueIdx.ix2 (0 : Fin 1) j) :=
  broadcastInDim_apply _ bcast_S1x16_S1360x16_0_1 y (ValueIdx.ix2 e j) (ValueIdx.ix2 (0 : Fin 1) j)
    (fun a => match a with | ⟨0, _⟩ => rfl | ⟨1, _⟩ => rfl)

/-- The row numbers' column at row `e` is the word `e`. -/
theorem rowIx_apply (e : Fin 1360) : rowIx (ValueIdx.ix2 e (0 : Fin 1)) = BitVec.ofNat 32 e.val := by
  unfold rowIx
  exact broadcastInDim_apply _ bcast_S1360_S1360x1_0 (iotaInDim S1360 32 0) (ValueIdx.ix2 e (0 : Fin 1)) (ValueIdx.ix1 e)
    (fun a => match a with | ⟨0, _⟩ => rfl)

/-- The column numbers' row at column `j` is the word `j`. -/
theorem colIx_apply (j : Fin 16) : colIx (ValueIdx.ix2 (0 : Fin 1) j) = BitVec.ofNat 32 j.val := by
  unfold colIx
  exact broadcastInDim_apply _ bcast_S16_S1x16_1 (iotaInDim S16 32 0) (ValueIdx.ix2 (0 : Fin 1) j) (ValueIdx.ix1 j)
    (fun a => match a with | ⟨0, _⟩ => rfl)

/-- The program's floor division at a row is the word floor division of the row's word by the scalar. -/
theorem floorDiv_apply (x : IVec S1360x1 32) (d : IVec S_ 32) (i : S1360x1.Idx) :
    floorDiv x d i = fdWord (x i) (d ValueIdx.ix0) := by
  show Scalar.select
      (IntOp.andi (IntOp.cmpi .ne (sgn (x i)) (broadcastInDim S1360x1 ![] bcast_S_S1360x1 (signi d) i))
        (IntOp.cmpi .ne (IntOp.remsi .host (x i) (broadcastInDim S1360x1 ![] bcast_S_S1360x1 d i))
          (broadcastInDim S1360x1 ![] bcast_S_S1360x1 (constantI S_ 32 0#32) i)))
      (IntOp.subi (IntOp.divsi .host (x i) (broadcastInDim S1360x1 ![] bcast_S_S1360x1 d i))
        (broadcastInDim S1360x1 ![] bcast_S_S1360x1 (constantI S_ 32 1#32) i))
      (IntOp.divsi .host (x i) (broadcastInDim S1360x1 ![] bcast_S_S1360x1 d i)) = _
  rw [bcast_scalar_col, bcast_scalar_col, bcast_scalar_col, bcast_scalar_col]
  rfl

/-- The first block's bit at (e, j). -/
theorem sumBits_apply (e : Fin 1360) (j : Fin 16) : sumBits (ValueIdx.ix2 e j) = bitSum e j := by
  show IntOp.cmpi .eq
      (broadcastInDim S1360x16 ![0, 1] bcast_S1360x1_S1360x16_0_1 (floorDiv rowIx (constantI S_ 32 85#32)) (ValueIdx.ix2 e j))
      (broadcastInDim S1360x16 ![0, 1] bcast_S1x16_S1360x16_0_1 colIx (ValueIdx.ix2 e j)) = _
  rw [bcast_col_mat, bcast_row_mat, floorDiv_apply, rowIx_apply, colIx_apply]
  rfl

/-- The second block's bit at (e, j). -/
theorem pickBits_apply (e : Fin 1360) (j : Fin 16) : pickBits (ValueIdx.ix2 e j) = bitPick e j := by
  show IntOp.cmpi .eq
      (broadcastInDim S1360x16 ![0, 1] bcast_S1360x1_S1360x16_0_1 rowIx (ValueIdx.ix2 e j))
      (broadcastInDim S1360x16 ![0, 1] bcast_S1x16_S1360x16_0_1
        (muli colIx (broadcastInDim S1x16 ![] bcast_S_S1x16 (constantI S_ 32 85#32))) (ValueIdx.ix2 e j)) = _
  rw [bcast_col_mat, bcast_row_mat, rowIx_apply]
  show IntOp.cmpi .eq (BitVec.ofNat 32 e.val)
      (IntOp.muli (colIx (ValueIdx.ix2 (0 : Fin 1) j))
        (broadcastInDim S1x16 ![] bcast_S_S1x16 (constantI S_ 32 85#32) (ValueIdx.ix2 (0 : Fin 1) j))) = _
  rw [colIx_apply, bcast_scalar_row]
  rfl

/-- A bit as a float, at the ideal instance, is 1 or 0. -/
theorem bit_toEReal (p : Prop) [Decidable p] :
    (FloatOps.uitofp (F := Ideal) .f32 (BitVec.ofBool (decide p)) : EReal) = if p then 1 else 0 := by
  by_cases h : p
  · rw [if_pos h, decide_eq_true h]
    show (((1#1 : BitVec 1).toNat : ℝ) : EReal) = 1
    norm_num
  · rw [if_neg h, decide_eq_false h]
    show (((0#1 : BitVec 1).toNat : ℝ) : EReal) = 0
    norm_num

/-- The matrix in its first sixteen columns. -/
theorem selMat_sum (e : Fin 1360) (j : Fin 16) :
    selMat (ValueIdx.ix2 e (⟨j.val, by omega⟩ : Fin 32)) = if e.val / 85 = j.val then 1 else 0 := by
  unfold selMat
  rw [concatenate_pair_apply_left (1 : Fin S1360x32.rank) _ _ concatenates_S1360x16_S1360x16_S1360x32_d1
    (ValueIdx.ix2 e (⟨j.val, by omega⟩ : Fin 32)) rfl (ValueIdx.ix2 e j)
    (fun b => match b with | ⟨0, _⟩ => rfl | ⟨1, _⟩ => rfl)]
  show FloatOps.uitofp (F := Ideal) .f32 (sumBits (ValueIdx.ix2 e j)) = _
  rw [sumBits_apply, bitSum_eq]
  exact bit_toEReal _

/-- The matrix in its last sixteen columns. -/
theorem selMat_pick (e : Fin 1360) (j : Fin 16) :
    selMat (ValueIdx.ix2 e (⟨16 + j.val, by omega⟩ : Fin 32)) = if e.val = 85 * j.val then 1 else 0 := by
  unfold selMat
  rw [concatenate_pair_apply_right (1 : Fin S1360x32.rank) _ _ concatenates_S1360x16_S1360x16_S1360x32_d1
    (ValueIdx.ix2 e (⟨16 + j.val, by omega⟩ : Fin 32)) rfl rfl (ValueIdx.ix2 e j)
    (fun b hb => match b, hb with | ⟨0, _⟩, _ => rfl | ⟨1, _⟩, hb => absurd rfl hb)
    (by show j.val + 16 = 16 + j.val; omega)]
  show FloatOps.uitofp (F := Ideal) .f32 (pickBits (ValueIdx.ix2 e j)) = _
  rw [pickBits_apply, bitPick_eq]
  exact bit_toEReal _

/-- The selection matrix, as the region finds it, in its first sixteen columns: 1 exactly where column `j` is the data
    row (among the sixteen of a view row) that view column `e` belongs to. -/
theorem V_v19_sum (e : Fin 1360) (j : Fin 16) :
    (Gen.V m c main_v19 : S1360x32.Idx → EReal) (ValueIdx.ix2 e (⟨j.val, by omega⟩ : Fin 32))
      = (if e.val / 85 = j.val then 1 else 0 : EReal) := by
  rw [V_v19_eq]
  exact selMat_sum e j

/-- The selection matrix, as the region finds it, in its last sixteen columns: 1 exactly where view column `e` is
    channel 0 of data row `j`. -/
theorem V_v19_pick (e : Fin 1360) (j : Fin 16) :
    (Gen.V m c main_v19 : S1360x32.Idx → EReal) (ValueIdx.ix2 e (⟨16 + j.val, by omega⟩ : Fin 32))
      = (if e.val = 85 * j.val then 1 else 0 : EReal) := by
  rw [V_v19_eq]
  exact selMat_pick e j

end Cert.KernelIdeal.Hand

end
-- ==== Proof.LibBlockSums.lean ====
import Mathlib

/-!
Finite sums over blocks of rows, reindexed.

An array of 42588 rows is read in 84 blocks of 512 rows, the last block overhanging the array; a row holds 16
groups, so that row `g` and group `j` are entry `16 g + j` of 681408. A row of 1360 entries is 16 groups of 85.
-/

namespace Cert.BlockSums

open Finset

/-- The 84 blocks of 512 rows cover the 42588 rows once each: the rows of the last block past the array's end
    contribute nothing. -/
theorem sum_rows {M : Type*} [AddCommMonoid M] (G : Fin 42588 → M) :
    (∑ t : Fin 84, ∑ r : Fin 512, (if h : 512 * t.val + r.val < 42588 then G ⟨512 * t.val + r.val, h⟩ else 0))
      = ∑ g : Fin 42588, G g := by
  classical
  -- the summand as a function of the row's number alone
  let G' : ℕ → M := fun k => if h : k < 42588 then G ⟨k, h⟩ else 0
  have hG : ∀ g : Fin 42588, G g = G' g.val := fun g => by
    show G g = if h : g.val < 42588 then G ⟨g.val, h⟩ else 0
    rw [dif_pos g.isLt]
  have h1 : ∀ t : Fin 84, ∀ r : Fin 512,
      (if h : 512 * t.val + r.val < 42588 then G ⟨512 * t.val + r.val, h⟩ else 0) = G' (512 * t.val + r.val) :=
    fun t r => rfl
  simp only [h1]
  rw [Finset.sum_congr rfl (fun (g : Fin 42588) _ => hG g)]
  -- block and offset are the quotient and the remainder of a number below 84 · 512
  rw [← Fintype.sum_prod_type' (f := fun (t : Fin 84) (r : Fin 512) => G' (512 * t.val + r.val))]
  rw [Fintype.sum_equiv (finProdFinEquiv : Fin 84 × Fin 512 ≃ Fin (84 * 512))
    (fun x => G' (512 * x.1.val + x.2.val)) (fun k => G' k.val)
    (fun x => by simp only [finProdFinEquiv_apply_val]; rw [add_comm])]
  rw [Fin.sum_univ_eq_sum_range (fun k => G' k) (84 * 512), Fin.sum_univ_eq_sum_range (fun k => G' k) 42588]
  symm
  refine Finset.sum_subset (fun k hk => ?_) (fun k _ hk => ?_)
  · rw [Finset.mem_range] at hk ⊢; omega
  · rw [Finset.mem_range] at hk
    show (if h : k < 42588 then G ⟨k, h⟩ else 0) = 0
    rw [dif_neg hk]

/-- Summing over offsets, groups and blocks is summing over the 681408 entries. -/
theorem sum_blocks {M : Type*} [AddCommMonoid M] (F : Fin 681408 → M) :
    (∑ r : Fin 512, ∑ j : Fin 16, ∑ t : Fin 84,
        (if h : 512 * t.val + r.val < 42588 then F ⟨16 * (512 * t.val + r.val) + j.val, by omega⟩ else 0))
      = ∑ d : Fin 681408, F d := by
  classical
  -- each group's blocks are its 42588 rows
  have key : ∀ j : Fin 16,
      (∑ t : Fin 84, ∑ r : Fin 512,
          (if h : 512 * t.val + r.val < 42588 then F ⟨16 * (512 * t.val + r.val) + j.val, by omega⟩ else 0))
        = ∑ g : Fin 42588, F ⟨16 * g.val + j.val, by omega⟩ :=
    fun j => sum_rows (fun g : Fin 42588 => F ⟨16 * g.val + j.val, by omega⟩)
  calc (∑ r : Fin 512, ∑ j : Fin 16, ∑ t : Fin 84,
          (if h : 512 * t.val + r.val < 42588 then F ⟨16 * (512 * t.val + r.val) + j.val, by omega⟩ else 0))
      = ∑ j : Fin 16, ∑ r : Fin 512, ∑ t : Fin 84,
          (if h : 512 * t.val + r.val < 42588 then F ⟨16 * (512 * t.val + r.val) + j.val, by omega⟩ else 0) :=
        Finset.sum_comm
    _ = ∑ j : Fin 16, ∑ t : Fin 84, ∑ r : Fin 512,
          (if h : 512 * t.val + r.val < 42588 then F ⟨16 * (512 * t.val + r.val) + j.val, by omega⟩ else 0) :=
        Finset.sum_congr rfl (fun j _ => Finset.sum_comm)
    _ = ∑ j : Fin 16, ∑ g : Fin 42588, F ⟨16 * g.val + j.val, by omega⟩ := Finset.sum_congr rfl (fun j _ => key j)
    _ = ∑ g : Fin 42588, ∑ j : Fin 16, F ⟨16 * g.val + j.val, by omega⟩ := Finset.sum_comm
    _ = ∑ x : Fin 42588 × Fin 16, F ⟨16 * x.1.val + x.2.val, by omega⟩ :=
        (Fintype.sum_prod_type' (f := fun (g : Fin 42588) (j : Fin 16) => F ⟨16 * g.val + j.val, by omega⟩)).symm
    _ = ∑ d : Fin 681408, F d :=
        Fintype.sum_equiv ((finProdFinEquiv : Fin 42588 × Fin 16 ≃ Fin (42588 * 16)).trans (finCongr (by norm_num)))
          _ _ (fun x => congrArg F (Fin.ext (by
            simp only [Equiv.trans_apply, finCongr_apply, Fin.coe_cast, finProdFinEquiv_apply_val]; rw [add_comm])))

/-- Group `j` of a row of 1360 entries is its entries `85 j, …, 85 j + 84`. -/
theorem sum_group (p : Fin 1360 → EReal) (j : Fin 16) :
    (∑ e : Fin 1360, p e * (if e.val / 85 = j.val then (1 : EReal) else 0)) = ∑ c : Fin 85, p ⟨85 * j.val + c.val, by omega⟩ := by
  classical
  simp only [mul_ite, mul_one, mul_zero]
  rw [← Finset.sum_filter]
  symm
  refine Finset.sum_bij' (fun (c : Fin 85) _ => (⟨85 * j.val + c.val, by omega⟩ : Fin 1360))
    (fun (e : Fin 1360) he => (⟨e.val - 85 * j.val, by have := (Finset.mem_filter.mp he).2; omega⟩ : Fin 85)) ?_ ?_ ?_ ?_ ?_
  · intro c _
    rw [Finset.mem_filter]
    exact ⟨Finset.mem_univ _, by show (85 * j.val + c.val) / 85 = j.val; omega⟩
  · intro e _; exact Finset.mem_univ _
  · intro c _; apply Fin.ext; show 85 * j.val + c.val - 85 * j.val = c.val; omega
  · intro e he
    have h := (Finset.mem_filter.mp he).2
    apply Fin.ext; show 85 * j.val + (e.val - 85 * j.val) = e.val; omega
  · intro c _; rfl

/-- The entry that opens group `j`. -/
theorem sum_pick (p : Fin 1360 → EReal) (j : Fin 16) :
    (∑ e : Fin 1360, p e * (if e.val = 85 * j.val then (1 : EReal) else 0)) = p ⟨85 * j.val, by omega⟩ := by
  classical
  simp only [mul_ite, mul_one, mul_zero]
  rw [Finset.sum_eq_single (⟨85 * j.val, by omega⟩ : Fin 1360)]
  · rw [if_pos rfl]
  · intro b _ hb
    rw [if_neg (fun h => hb (Fin.ext h))]
  · intro h; exact absurd (Finset.mem_univ _) h

/-- The inclusion of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.BlockSums
-- ==== Proof.TermCore.lean ====
import proofs.«125290_g9715216024200_cont_9to1_m_804_10_alg».proof.Proof.Step
import proofs.«125290_g9715216024200_cont_9to1_m_804_10_alg».proof.Proof.Spec
import proofs.«125290_g9715216024200_cont_9to1_m_804_10_alg».proof.Proof.LibBlockSums

/-!
The three terms a grid point adds at a block row and a group, in closed form over the argument arrays.

Row `g` of the [42588, 1360] view of an argument array is sixteen consecutive data rows side by side: column `e` is
channel `e % 85` of data row `16 g + e / 85`. Against the selection matrix's summing column `j` (1 where
`e / 85 = j`) a dot product over the 1360 columns is the sum over the 85 channels of data row `16 g + j`; against its
picking column `j` (1 where `e = 85 j`) it is that data row's channel 0.
-/

set_option maxRecDepth 16384

noncomputable section

namespace Cert.KernelIdeal.Val

open Cert.KernelIdeal Cert.KernelIdeal.Gen
open Idealize.ShloMosaic
open Idealize.ShloMosaic.ValueIdx
open Cert.Mloss (cell hit SX)
open scoped BigOperators

/-- Column `e` of view row `g`: channel `e % 85` of data row `16 g + e / 85`. -/
def cellAt (x : SX.Idx → EReal) (g : Fin 42588) (e : Fin 1360) : EReal :=
  cell x ⟨16 * g.val + e.val / 85, by omega⟩ ⟨e.val % 85, Nat.mod_lt _ (by norm_num)⟩

/-- Column `85 j + c` of view row `g` is channel `c` of data row `16 g + j`. -/
theorem cellAt_group (x : SX.Idx → EReal) (g : Fin 42588) (j : Fin 16) (c : Fin 85) :
    cellAt x g ⟨85 * j.val + c.val, by omega⟩ = cell x ⟨16 * g.val + j.val, by omega⟩ c := by
  unfold cellAt
  have h1 : (⟨16 * g.val + (85 * j.val + c.val) / 85, by omega⟩ : Fin 681408) = ⟨16 * g.val + j.val, by omega⟩ :=
    Fin.ext (by show 16 * g.val + (85 * j.val + c.val) / 85 = 16 * g.val + j.val; omega)
  have h2 : (⟨(85 * j.val + c.val) % 85, Nat.mod_lt _ (by norm_num)⟩ : Fin 85) = c :=
    Fin.ext (by show (85 * j.val + c.val) % 85 = c.val; omega)
  show cell x ⟨16 * g.val + (85 * j.val + c.val) / 85, _⟩ ⟨(85 * j.val + c.val) % 85, _⟩ = _
  rw [h1, h2]

/-- Column `85 j` of view row `g` is channel 0 of data row `16 g + j`. -/
theorem cellAt_first (x : SX.Idx → EReal) (g : Fin 42588) (j : Fin 16) :
    cellAt x g ⟨85 * j.val, by omega⟩ = cell x ⟨16 * g.val + j.val, by omega⟩ 0 := by
  unfold cellAt
  have h1 : (⟨16 * g.val + (85 * j.val) / 85, by omega⟩ : Fin 681408) = ⟨16 * g.val + j.val, by omega⟩ :=
    Fin.ext (by show 16 * g.val + (85 * j.val) / 85 = 16 * g.val + j.val; omega)
  have h2 : (⟨(85 * j.val) % 85, Nat.mod_lt _ (by norm_num)⟩ : Fin 85) = 0 :=
    Fin.ext (by show (85 * j.val) % 85 = 0; omega)
  show cell x ⟨16 * g.val + (85 * j.val) / 85, _⟩ ⟨(85 * j.val) % 85, _⟩ = _
  rw [h1, h2]

theorem andi_one : ∀ b : BitVec 1, IntOp.andi b 1#1 = b := by decide
theorem andi_zero : ∀ b : BitVec 1, IntOp.andi b 0#1 = 0#1 := by decide
theorem bit_eq_zero_of_ne_one : ∀ b : BitVec 1, b ≠ 1#1 → b = 0#1 := by decide

section Core

variable (i : grid0.Coords) (X0 X1 : S512x1360.Idx → EReal) (Sl Sh : S1360x16.Idx → EReal) (r : Fin 512) (j : Fin 16)

/-- A block row past the array's end adds nothing: both masks are off. -/
theorem termAt_out (hout : ¬inArr i r) (k : Fin 3) : termAt i X0 X1 Sl Sh k r j = 0 := by
  have hd : decide (inArr i r) = false := decide_eq_false hout
  have hb : BitVec.ofBool false = 0#1 := rfl
  unfold termAt term0 term1 term2 hbit
  simp only [hd, hb, andi_zero, select_zero, Ideal.ofBits_zero_f32, ite_self]

variable (x y : SX.Idx → EReal) (g : Fin 42588)
  (hin : inArr i r)
  (hX0 : ∀ e : Fin 1360, X0 (ix2 r e) = cellAt x g e) (hX1 : ∀ e : Fin 1360, X1 (ix2 r e) = cellAt y g e)
  (hSl : ∀ e : Fin 1360, Sl (ix2 e j) = if e.val / 85 = j.val then (1 : EReal) else 0)
  (hSh : ∀ e : Fin 1360, Sh (ix2 e j) = if e.val = 85 * j.val then (1 : EReal) else 0)

include hX1 hSh in
/-- The label row's dot product with the picking column is the data row's label channel. -/
theorem label_dot : (∑ e : Fin 1360, X1 (ix2 r e) * Sh (ix2 e j)) = cell y ⟨16 * g.val + j.val, by omega⟩ 0 := by
  simp only [hX1, hSh]
  rw [Cert.BlockSums.sum_pick (fun e => cellAt y g e) j]
  exact cellAt_first y g j

include hin hX1 hSh in
/-- On a row of the array the selection bit is the data row's: its label channel exceeds the threshold. -/
theorem hbit_in : hbit i X1 Sh r j
    = Ideal.cmp .ogt (cell y ⟨16 * g.val + j.val, by omega⟩ 0) (Ideal.ofBits .f32 0x3F000000#32) := by
  unfold hbit
  rw [label_dot X1 Sh r j y g hX1 hSh, decide_eq_true hin]
  exact andi_one _

/-- A select on the selection bit is a conditional on "the data row is selected". -/
theorem select_hit (v A : EReal) :
    Scalar.select (Ideal.cmp .ogt v (Ideal.ofBits .f32 0x3F000000#32)) A (Ideal.ofBits .f32 0x00000000#32)
      = if hit v then A else 0 := by
  rw [Ideal.ofBits_zero_f32]
  by_cases hh : hit v
  · rw [if_pos hh]
    have h1 : Ideal.cmp .ogt v (Ideal.ofBits .f32 0x3F000000#32) = 1#1 := hh
    rw [h1]; exact select_one _ _
  · rw [if_neg hh]
    have h0 : Ideal.cmp .ogt v (Ideal.ofBits .f32 0x3F000000#32) = 0#1 := bit_eq_zero_of_ne_one _ hh
    rw [h0]; exact select_zero _ _

include hin hX0 hX1 hSl hSh in
/-- Plane 0: a selected data row's sum over its channels of the squared difference. -/
theorem termAt0_in : termAt i X0 X1 Sl Sh 0 r j
    = if hit (cell y ⟨16 * g.val + j.val, by omega⟩ 0) then
        ∑ c : Fin 85, (cell y ⟨16 * g.val + j.val, by omega⟩ c - cell x ⟨16 * g.val + j.val, by omega⟩ c)
          * (cell y ⟨16 * g.val + j.val, by omega⟩ c - cell x ⟨16 * g.val + j.val, by omega⟩ c)
      else 0 := by
  have hs : (∑ e : Fin 1360, ((X1 (ix2 r e) - X0 (ix2 r e)) * (X1 (ix2 r e) - X0 (ix2 r e))) * Sl (ix2 e j))
      = ∑ c : Fin 85, (cell y ⟨16 * g.val + j.val, by omega⟩ c - cell x ⟨16 * g.val + j.val, by omega⟩ c)
          * (cell y ⟨16 * g.val + j.val, by omega⟩ c - cell x ⟨16 * g.val + j.val, by omega⟩ c) := by
    simp only [hX0, hX1, hSl]
    rw [Cert.BlockSums.sum_group (fun e => (cellAt y g e - cellAt x g e) * (cellAt y g e - cellAt x g e)) j]
    exact Finset.sum_congr rfl fun c _ => by simp only [cellAt_group]
  unfold termAt
  rw [if_pos (show ((0 : Fin 3) : ℕ) = 0 from rfl)]
  unfold term0
  rw [hbit_in i X1 Sh r j y g hin hX1 hSh, hs]
  exact select_hit _ _

include hin hX0 hX1 hSl hSh in
/-- Plane 1: a selected data row's sum over its channels of the square. -/
theorem termAt1_in : termAt i X0 X1 Sl Sh 1 r j
    = if hit (cell y ⟨16 * g.val + j.val, by omega⟩ 0) then
        ∑ c : Fin 85, cell x ⟨16 * g.val + j.val, by omega⟩ c * cell x ⟨16 * g.val + j.val, by omega⟩ c
      else 0 := by
  have hs : (∑ e : Fin 1360, (X0 (ix2 r e) * X0 (ix2 r e)) * Sl (ix2 e j))
      = ∑ c : Fin 85, cell x ⟨16 * g.val + j.val, by omega⟩ c * cell x ⟨16 * g.val + j.val, by omega⟩ c := by
    simp only [hX0, hSl]
    rw [Cert.BlockSums.sum_group (fun e => cellAt x g e * cellAt x g e) j]
    exact Finset.sum_congr rfl fun c _ => by simp only [cellAt_group]
  unfold termAt
  rw [if_neg (show ¬((1 : Fin 3) : ℕ) = 0 by decide), if_pos (show ((1 : Fin 3) : ℕ) = 1 from rfl)]
  unfold term1
  rw [hbit_in i X1 Sh r j y g hin hX1 hSh, hs]
  exact select_hit _ _

include hin hX0 hSh in
/-- Plane 2: every data row's squared channel 0. -/
theorem termAt2_in : termAt i X0 X1 Sl Sh 2 r j
    = cell x ⟨16 * g.val + j.val, by omega⟩ 0 * cell x ⟨16 * g.val + j.val, by omega⟩ 0 := by
  have hs : (∑ e : Fin 1360, (X0 (ix2 r e) * X0 (ix2 r e)) * Sh (ix2 e j))
      = cell x ⟨16 * g.val + j.val, by omega⟩ 0 * cell x ⟨16 * g.val + j.val, by omega⟩ 0 := by
    simp only [hX0, hSh]
    rw [Cert.BlockSums.sum_pick (fun e => cellAt x g e * cellAt x g e) j]
    simp only [cellAt_first]
  unfold termAt
  rw [if_neg (show ¬((2 : Fin 3) : ℕ) = 0 by decide), if_neg (show ¬((2 : Fin 3) : ℕ) = 1 by decide)]
  unfold term2
  rw [hs, decide_eq_true hin]
  exact select_one _ _

end Core

end Cert.KernelIdeal.Val

end
-- ==== Proof.TermForms.lean ====
import proofs.«125290_g9715216024200_cont_9to1_m_804_10_alg».proof.Proof.ValueDat
import proofs.«125290_g9715216024200_cont_9to1_m_804_10_alg».proof.Proof.HostPrefix
import proofs.«125290_g9715216024200_cont_9to1_m_804_10_alg».proof.Proof.TermCore

/-!
The three terms a grid point adds, at the staged blocks, in closed form over the argument arrays.

At point `t` the two input windows stage rows `512 t … 512 t + 511` of the [42588, 1360] views of the argument
arrays (the last block's rows past the array's end are zero in the proof data and masked off by the body), and the
third window stages the whole selection matrix.
-/

set_option maxRecDepth 16384

noncomputable section

namespace Cert.KernelIdeal.Val

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Cert.Mloss (cell hit SX)
open scoped BigOperators

variable (m : (ℓ : Loc nD τ sig) → Buf (Elt Ideal) ℓ) (c : Dev nD) (t : Fin cfg0.N)

/-! ## The windows' block indices, decided over the grid -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)

/-- Block row `r` at point `t` is a row of the array exactly when `512 t + r` is below 42588. -/
theorem inArr_iff (r : Fin 512) : inArr (grid0.coords t) r ↔ 512 * t.val + r.val < 42588 := by
  unfold inArr; rw [coord_val]

/-! ## The staged blocks read at an entry -/

/-- The first input's block at a row of the array: row `512 t + r` of the first argument's view. -/
theorem xblk_apply (r : Fin 512) (e : Fin 1360) (h : 512 * t.val + r.val < 42588) :
    xblk m c t (ix2 r e) = (V m c main_v0 : S42588x1360.Idx → EReal) (ix2 ⟨512 * t.val + r.val, h⟩ e) := by
  have hm : win0_0.moved (grid0.coords t) (ix2 r e) = true := (moved0 t r e).mpr ((inArr_iff t r).mpr h)
  unfold xblk Pipeline.Window.fill
  rw [dif_pos hm]
  unfold iblk
  rw [View.read_apply]
  show (V m c main_v0 : S42588x1360.Idx → EReal) (((cfg0.win 0).blk t).view.emb _) = _
  refine congrArg (V m c main_v0 : S42588x1360.Idx → EReal) (funext fun a => Fin.ext ?_)
  obtain ⟨e0, e1⟩ := index0 t
  match a with
  | ⟨0, _⟩ => show win0_0.index t (0 : Fin 2) * 512 + 1 * r.val = 512 * t.val + r.val; omega
  | ⟨1, _⟩ => show win0_0.index t (1 : Fin 2) * 1360 + 1 * e.val = e.val; omega

/-- The second input's block at a row of the array: row `512 t + r` of the second argument's view. -/
theorem yblk_apply (r : Fin 512) (e : Fin 1360) (h : 512 * t.val + r.val < 42588) :
    yblk m c t (ix2 r e) = (V m c main_v1 : S42588x1360.Idx → EReal) (ix2 ⟨512 * t.val + r.val, h⟩ e) := by
  have hm : win0_1.moved (grid0.coords t) (ix2 r e) = true := (moved1 t r e).mpr ((inArr_iff t r).mpr h)
  unfold yblk Pipeline.Window.fill
  rw [dif_pos hm]
  unfold iblk
  rw [View.read_apply]
  show (V m c main_v1 : S42588x1360.Idx → EReal) (((cfg0.win 1).blk t).view.emb _) = _
  refine congrArg (V m c main_v1 : S42588x1360.Idx → EReal) (funext fun a => Fin.ext ?_)
  obtain ⟨e0, e1⟩ := index1 t
  match a with
  | ⟨0, _⟩ => show win0_1.index t (0 : Fin 2) * 512 + 1 * r.val = 512 * t.val + r.val; omega
  | ⟨1, _⟩ => show win0_1.index t (1 : Fin 2) * 1360 + 1 * e.val = e.val; omega

/-- The third window's one block is the whole selection matrix. -/
theorem sblk_apply (e : Fin 1360) (q : Fin 32) :
    sblk m c t (ix2 e q) = (V m c main_v19 : S1360x32.Idx → EReal) (ix2 e q) := by
  unfold sblk iblk
  rw [View.read_apply]
  show (V m c main_v19 : S1360x32.Idx → EReal) (((cfg0.win 2).blk t).view.emb (ix2 e q)) = _
  refine congrArg (V m c main_v19 : S1360x32.Idx → EReal) (funext fun a => Fin.ext ?_)
  obtain ⟨e0, e1⟩ := index2 t
  match a with
  | ⟨0, _⟩ => show win0_2.index t (0 : Fin 2) * 1360 + 1 * e.val = e.val; omega
  | ⟨1, _⟩ => show win0_2.index t (1 : Fin 2) * 32 + 1 * q.val = q.val; omega

/-- The summing band's column `j` is the matrix's column `j`. -/
theorem Rlo_idx (e : Fin 1360) (j : Fin 16) : Rlo.idx (ix2 e j) = (ix2 e (⟨j.val, by omega⟩ : Fin 32) : S1360x32.Idx) := by
  funext a; apply Fin.ext
  match a with
  | ⟨0, _⟩ => show 0 + 1 * e.val = e.val; omega
  | ⟨1, _⟩ => show 0 + 1 * j.val = j.val; omega

/-- The picking band's column `j` is the matrix's column `16 + j`. -/
theorem Rhi_idx (e : Fin 1360) (j : Fin 16) : Rhi.idx (ix2 e j) = (ix2 e (⟨16 + j.val, by omega⟩ : Fin 32) : S1360x32.Idx) := by
  funext a; apply Fin.ext
  match a with
  | ⟨0, _⟩ => show 0 + 1 * e.val = e.val; omega
  | ⟨1, _⟩ => show 16 + 1 * j.val = 16 + j.val; omega

theorem Slo_sblk_apply (e : Fin 1360) (j : Fin 16) :
    Slo (sblk m c t) (ix2 e j) = (V m c main_v19 : S1360x32.Idx → EReal) (ix2 e (⟨j.val, by omega⟩ : Fin 32)) := by
  unfold Slo; rw [Rlo_idx]; exact sblk_apply m c t e _

theorem Shi_sblk_apply (e : Fin 1360) (j : Fin 16) :
    Shi (sblk m c t) (ix2 e j) = (V m c main_v19 : S1360x32.Idx → EReal) (ix2 e (⟨16 + j.val, by omega⟩ : Fin 32)) := by
  unfold Shi; rw [Rhi_idx]; exact sblk_apply m c t e _

/-! ## The three terms -/

/-- Plane 0's term at point `t`, block row `r`, group `j`. -/
theorem term_zero (r : Fin 512) (j : Fin 16) :
    termAt (grid0.coords t) (xblk m c t) (yblk m c t) (Slo (sblk m c t)) (Shi (sblk m c t)) 0 r j
      = if h : 512 * t.val + r.val < 42588 then
          (if hit (cell (m ((c : Thread nD τ).loc main_arg1)) ⟨16 * (512 * t.val + r.val) + j.val, by omega⟩ 0) then
            ∑ c' : Fin 85,
              (cell (m ((c : Thread nD τ).loc main_arg1)) ⟨16 * (512 * t.val + r.val) + j.val, by omega⟩ c'
                  - cell (m ((c : Thread nD τ).loc main_arg0)) ⟨16 * (512 * t.val + r.val) + j.val, by omega⟩ c')
                * (cell (m ((c : Thread nD τ).loc main_arg1)) ⟨16 * (512 * t.val + r.val) + j.val, by omega⟩ c'
                  - cell (m ((c : Thread nD τ).loc main_arg0)) ⟨16 * (512 * t.val + r.val) + j.val, by omega⟩ c')
          else 0)
        else 0 := by
  by_cases h : 512 * t.val + r.val < 42588
  · rw [dif_pos h]
    exact termAt0_in (grid0.coords t) _ _ _ _ r j (m ((c : Thread nD τ).loc main_arg0)) (m ((c : Thread nD τ).loc main_arg1))
      ⟨512 * t.val + r.val, h⟩ ((inArr_iff t r).mpr h)
      (fun e => (xblk_apply m c t r e h).trans (Cert.KernelIdeal.Hand.V_v0_apply m c _ e))
      (fun e => (yblk_apply m c t r e h).trans (Cert.KernelIdeal.Hand.V_v1_apply m c _ e))
      (fun e => (Slo_sblk_apply m c t e j).trans (Cert.KernelIdeal.Hand.V_v19_sum m c e j))
      (fun e => (Shi_sblk_apply m c t e j).trans (Cert.KernelIdeal.Hand.V_v19_pick m c e j))
  · rw [dif_neg h]
    exact termAt_out (grid0.coords t) _ _ _ _ r j (fun hh => h ((inArr_iff t r).mp hh)) 0

/-- Plane 1's term at point `t`, block row `r`, group `j`. -/
theorem term_one (r : Fin 512) (j : Fin 16) :
    termAt (grid0.coords t) (xblk m c t) (yblk m c t) (Slo (sblk m c t)) (Shi (sblk m c t)) 1 r j
      = if h : 512 * t.val + r.val < 42588 then
          (if hit (cell (m ((c : Thread nD τ).loc main_arg1)) ⟨16 * (512 * t.val + r.val) + j.val, by omega⟩ 0) then
            ∑ c' : Fin 85,
              cell (m ((c : Thread nD τ).loc main_arg0)) ⟨16 * (512 * t.val + r.val) + j.val, by omega⟩ c'
                * cell (m ((c : Thread nD τ).loc main_arg0)) ⟨16 * (512 * t.val + r.val) + j.val, by omega⟩ c'
          else 0)
        else 0 := by
  by_cases h : 512 * t.val + r.val < 42588
  · rw [dif_pos h]
    exact termAt1_in (grid0.coords t) _ _ _ _ r j (m ((c : Thread nD τ).loc main_arg0)) (m ((c : Thread nD τ).loc main_arg1))
      ⟨512 * t.val + r.val, h⟩ ((inArr_iff t r).mpr h)
      (fun e => (xblk_apply m c t r e h).trans (Cert.KernelIdeal.Hand.V_v0_apply m c _ e))
      (fun e => (yblk_apply m c t r e h).trans (Cert.KernelIdeal.Hand.V_v1_apply m c _ e))
      (fun e => (Slo_sblk_apply m c t e j).trans (Cert.KernelIdeal.Hand.V_v19_sum m c e j))
      (fun e => (Shi_sblk_apply m c t e j).trans (Cert.KernelIdeal.Hand.V_v19_pick m c e j))
  · rw [dif_neg h]
    exact termAt_out (grid0.coords t) _ _ _ _ r j (fun hh => h ((inArr_iff t r).mp hh)) 1

/-- Plane 2's term at point `t`, block row `r`, group `j`. -/
theorem term_two (r : Fin 512) (j : Fin 16) :
    termAt (grid0.coords t) (xblk m c t) (yblk m c t) (Slo (sblk m c t)) (Shi (sblk m c t)) 2 r j
      = if h : 512 * t.val + r.val < 42588 then
          cell (m ((c : Thread nD τ).loc main_arg0)) ⟨16 * (512 * t.val + r.val) + j.val, by omega⟩ 0
            * cell (m ((c : Thread nD τ).loc main_arg0)) ⟨16 * (512 * t.val + r.val) + j.val, by omega⟩ 0
        else 0 := by
  by_cases h : 512 * t.val + r.val < 42588
  · rw [dif_pos h]
    exact termAt2_in (grid0.coords t) _ (yblk m c t) (Slo (sblk m c t)) _ r j (m ((c : Thread nD τ).loc main_arg0))
      ⟨512 * t.val + r.val, h⟩ ((inArr_iff t r).mpr h)
      (fun e => (xblk_apply m c t r e h).trans (Cert.KernelIdeal.Hand.V_v0_apply m c _ e))
      (fun e => (Shi_sblk_apply m c t e j).trans (Cert.KernelIdeal.Hand.V_v19_pick m c e j))
  · rw [dif_neg h]
    exact termAt_out (grid0.coords t) _ _ _ _ r j (fun hh => h ((inArr_iff t r).mp hh)) 2

end Cert.KernelIdeal.Val

end
-- ==== Proof.TailValue.lean ====
import proofs.«125290_g9715216024200_cont_9to1_m_804_10_alg».proof.Proof.Gen.KernelIdeal.Frame
import proofs.«125290_g9715216024200_cont_9to1_m_804_10_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.StableHlo
open Idealize.SL Idealize.SL.Sem
open Idealize.ShloMosaic.ValueIdx
open scoped BigOperators

variable (m : (ℓ : Loc nD τ sig) → Buf (Elt Ideal) ℓ)
  (dats : (p : Fin 1) → (c : Dev nD) → Pipeline.Dat τ (Elt Ideal) Unit ℕ (UR sig nD τ) ℕ (cfgs p) c) (c : Dev nD)

/-! ## The result array after the region

The result's window has one block, the whole array, whose index never moves: it is carried across all 84 points and
written back at the last one only. So the array ends holding what the body left in the window's buffer at the last
point. -/

/-- The window's block index is zero on every axis at every point: decided over the grid. -/
theorem index3_zero : ∀ t : Fin cfg0.N, win0_3.index t (0 : Fin 3) = 0 ∧ win0_3.index t (1 : Fin 3) = 0 ∧ win0_3.index t (2 : Fin 3) = 0 :=
  (by decide +kernel : ∀ t : Fin grid0.N, _)

/-- Every index of the array lies in the window's block at any point. -/
theorem mem_blk3 (t : Fin cfg0.N) (i : S3x512x16.Idx) : i ∈ ((cfg0.win 3).blk t).view.set := by
  show i ∈ ((View.whole main_v20).slice (win0_3.rect t)).set
  rw [View.set_slice_whole, Rect.mem_set_unit]
  obtain ⟨e0, e1, e2⟩ := index3_zero t
  intro a
  match a with
  | ⟨0, _⟩ =>
    show win0_3.index t (0 : Fin 3) * 3 ≤ (i 0).val ∧ (i 0).val < win0_3.index t (0 : Fin 3) * 3 + 3
    have h : (i 0).val < 3 := (i 0).isLt
    omega
  | ⟨1, _⟩ =>
    show win0_3.index t (1 : Fin 3) * 512 ≤ (i 1).val ∧ (i 1).val < win0_3.index t (1 : Fin 3) * 512 + 512
    have h : (i 1).val < 512 := (i 1).isLt
    omega
  | ⟨2, _⟩ =>
    show win0_3.index t (2 : Fin 3) * 16 ≤ (i 2).val ∧ (i 2).val < win0_3.index t (2 : Fin 3) * 16 + 16
    have h : (i 2).val < 16 := (i 2).isLt
    omega

/-- The window's block at any point, read off an array, is the array. -/
theorem read_blk3 (t : Fin cfg0.N) (G : S3x512x16.Idx → EReal) (j : S3x512x16.Idx) :
    ((cfg0.win 3).blk t).view.read (Elt Ideal) G j = G j := by
  rw [View.read_apply]
  show G (((cfg0.win 3).blk t).view.emb j) = G j
  refine congrArg G (funext fun a => Fin.ext ?_)
  obtain ⟨e0, e1, e2⟩ := index3_zero t
  match a with
  | ⟨0, _⟩ => show win0_3.index t (0 : Fin 3) * 3 + 1 * (j 0).val = (j 0).val; omega
  | ⟨1, _⟩ => show win0_3.index t (1 : Fin 3) * 512 + 1 * (j 1).val = (j 1).val; omega
  | ⟨2, _⟩ => show win0_3.index t (2 : Fin 3) * 16 + 1 * (j 2).val = (j 2).val; omega

/-- THE RESULT ARRAY after the run is what the body left in its window's buffer at the last point. -/
theorem arr_final : ((dats 0 c).arrAt 3 cfg0.N : S3x512x16.Idx → EReal) = (dats 0 c).after 3 ⟨83, by decide⟩ := by
  refine (dats 0 c).arrAt_eq_of_cover 3 _ (fun t ht => ?_) (fun i => ⟨⟨83, by decide⟩, (flush0_3 _).mpr (by decide), mem_blk3 _ i⟩)
  have ht84 : t.val < 84 := lt_of_lt_of_eq t.isLt N_0
  have h83 : t = ⟨83, by decide⟩ := Fin.ext (by have := (flush0_3 t).mp ht; show t.val = 83; omega)
  subst h83
  funext j
  exact (read_blk3 _ ((dats 0 c).after 3 ⟨83, by decide⟩) j).symm

/-! ## The host operations after the region

They slice the result array into its three slabs of 512 × 16 entries, sum each slab from the initial value zero, and
return the first sum less the weight times the difference of the second and the third. -/

/-- The host operations after the region as one function of the result array. -/
def tailFn (Z : (⟨S3x512x16, .f32⟩ : BufTy).Contents (Elt Ideal)) : (⟨S_, .f32⟩ : BufTy).Contents (Elt Ideal) :=
  subf
    (Host.reduceAdd (F := Ideal)
      (shapeCast S512x16 (extractStridedSlice S1x512x16 ![0, 0, 0] Z slices_S3x512x16_S1x512x16_0_0_0) shapeCasts_S1x512x16_S512x16)
      (constant (F := Ideal) S_ .f32 0x00000000#32) reducesTo_S512x16_S_d0_1 h_S_)
    (mulf (constant (F := Ideal) S_ .f32 0x3DCCCCCD#32)
      (subf
        (Host.reduceAdd (F := Ideal)
          (shapeCast S512x16 (extractStridedSlice S1x512x16 ![1, 0, 0] Z slices_S3x512x16_S1x512x16_1_0_0) shapeCasts_S1x512x16_S512x16)
          (constant (F := Ideal) S_ .f32 0x00000000#32) reducesTo_S512x16_S_d0_1 h_S_)
        (Host.reduceAdd (F := Ideal)
          (shapeCast S512x16 (extractStridedSlice S1x512x16 ![2, 0, 0] Z slices_S3x512x16_S1x512x16_2_0_0) shapeCasts_S1x512x16_S512x16)
          (constant (F := Ideal) S_ .f32 0x00000000#32) reducesTo_S512x16_S_d0_1 h_S_)))

set_option maxHeartbeats 1000000 in
/-- What the last host operation's result buffer holds after the lines, from any contents: that function of the
    result array's contents. -/
theorem tail_after (W : Valuation τ sig (Elt Ideal)) :
    StableHlo.after (hostOps1 (F := Ideal)) W (Proc.devRef .tc main_v32) = tailFn (W (Proc.devRef .tc main_v20)) := by
  after_results
  rfl

/-- A slab's sum: the host's sum over both axes of slab `k`, from zero, is zero plus the double sum of the slab's
    entries. -/
theorem slab_sum (Z : S3x512x16.Idx → EReal) (k : Fin 3) (off : Fin 3 → ℕ) (h0 : off 0 = k.val) (h1 : off 1 = 0) (h2 : off 2 = 0)
    (hs : S3x512x16.Slices off S1x512x16) (i : S_.Idx) :
    Host.reduceAdd (F := Ideal) (shapeCast S512x16 (extractStridedSlice S1x512x16 off Z hs) shapeCasts_S1x512x16_S512x16)
        (constant (F := Ideal) S_ .f32 0x00000000#32) reducesTo_S512x16_S_d0_1 h_S_ i
      = (0 : EReal) + ∑ r : Fin 512, ∑ j : Fin 16, Z (ix3 k r j) := by
  have hy : ∀ (r : Fin 512) (j : Fin 16),
      shapeCast S512x16 (extractStridedSlice S1x512x16 off Z hs) shapeCasts_S1x512x16_S512x16 (ix2 r j) = Z (ix3 k r j) := fun r j => by
    refine (shapeCast_1ab_ab_apply _ shapeCasts_S1x512x16_S512x16 r j).trans ?_
    exact extractStridedSlice_apply off Z hs _ (ix3 k r j) (fun a => match a with
      | ⟨0, _⟩ => by show k.val = off 0 + 0; omega
      | ⟨1, _⟩ => by show r.val = off 1 + r.val; omega
      | ⟨2, _⟩ => by show j.val = off 2 + j.val; omega)
  generalize shapeCast S512x16 (extractStridedSlice S1x512x16 off Z hs) shapeCasts_S1x512x16_S512x16 = y at hy
  simp only [Host.reduceAdd, Ideal.hostReduceAdd_def]
  refine (Ideal.hostReduceAdd_total reducesTo_S512x16_S_d0_1 (fun b => b.elim0) y _ i).trans ?_
  rw [constant_apply, Ideal.ofBits_zero_f32, sum_idx2]
  exact congrArg _ (Finset.sum_congr rfl fun r _ => Finset.sum_congr rfl fun j _ => hy r j)

/-- The tail's function read at the scalar's one index. -/
theorem tailFn_eq (Z : S3x512x16.Idx → EReal) : tailFn Z = fun _ =>
    ((0 : EReal) + ∑ r : Fin 512, ∑ j : Fin 16, Z (ix3 (0 : Fin 3) r j))
      - Cert.Mloss.alphaE * (((0 : EReal) + ∑ r : Fin 512, ∑ j : Fin 16, Z (ix3 (1 : Fin 3) r j))
          - ((0 : EReal) + ∑ r : Fin 512, ∑ j : Fin 16, Z (ix3 (2 : Fin 3) r j))) := by
  funext i
  unfold tailFn
  rw [subf_apply, mulf_apply, subf_apply, constant_apply,
    slab_sum Z 0 ![0, 0, 0] rfl rfl rfl slices_S3x512x16_S1x512x16_0_0_0 i,
    slab_sum Z 1 ![1, 0, 0] rfl rfl rfl slices_S3x512x16_S1x512x16_1_0_0 i,
    slab_sum Z 2 ![2, 0, 0] rfl rfl rfl slices_S3x512x16_S1x512x16_2_0_0 i]
  rfl

/-- THE KERNEL'S VALUE AFTER ITS REGION: the program's result, from the result array `Z` the region leaves. -/
theorem tail_value (Z : S3x512x16.Idx → EReal) (hZ : ((dats 0 c).arrAt 3 cfg0.N : S3x512x16.Idx → EReal) = Z) :
    Pipeline.afterTail₀ cfgs dats 0 (V0 m) [hostOps1] c main_v32 = fun _ =>
      ((0 : EReal) + ∑ r : Fin 512, ∑ j : Fin 16, Z (ix3 (0 : Fin 3) r j))
        - Cert.Mloss.alphaE * (((0 : EReal) + ∑ r : Fin 512, ∑ j : Fin 16, Z (ix3 (1 : Fin 3) r j))
            - ((0 : EReal) + ∑ r : Fin 512, ∑ j : Fin 16, Z (ix3 (2 : Fin 3) r j))) := by
  have hW : Pipeline.withArrays (cfgs 0).spec c (V0 m c) (fun w => (dats 0 c).arrAt w (cfgs 0).N) (Proc.devRef .tc main_v20)
      = (dats 0 c).arrAt 3 cfg0.N :=
    Pipeline.withArrays_arr spec0 launch0.win.arr_inj c _ _ 3
  unfold Pipeline.afterTail₀
  show StableHlo.after hostOps1 _ (Proc.devRef .tc main_v32) = _
  rw [tail_after, hW]
  subst hZ
  exact tailFn_eq _

/-- The same from what the body left in the result's window at the last point. -/
theorem tail_value_last (Y : S3x512x16.Idx → EReal) (hY : (dats 0 c).after 3 ⟨83, by decide⟩ = Y) :
    Pipeline.afterTail₀ cfgs dats 0 (V0 m) [hostOps1] c main_v32 = fun _ =>
      ((0 : EReal) + ∑ r : Fin 512, ∑ j : Fin 16, Y (ix3 (0 : Fin 3) r j))
        - Cert.Mloss.alphaE * (((0 : EReal) + ∑ r : Fin 512, ∑ j : Fin 16, Y (ix3 (1 : Fin 3) r j))
            - ((0 : EReal) + ∑ r : Fin 512, ∑ j : Fin 16, Y (ix3 (2 : Fin 3) r j))) :=
  tail_value m dats c Y ((arr_final dats c).trans hY)

end Cert.KernelIdeal.Hand

end
-- ==== Proof.KLossLaw.lean ====
import proofs.«125290_g9715216024200_cont_9to1_m_804_10_alg».proof.Proof.Spec
import proofs.«125290_g9715216024200_cont_9to1_m_804_10_alg».proof.Proof.RealFacts
import proofs.«125290_g9715216024200_cont_9to1_m_804_10_alg».proof.Proof.LossLaw

/-!
The loss in its own arrangement, computed in the extended reals.

When every entry and the weight are real numbers, the arrangement

  (0 + Σ_{d selected} Σ_c (y − x)²)  −  a · ( (0 + Σ_{d selected} Σ_c x²)  −  (0 + Σ_d x²(d, 0)) )

evaluated with the extended reals' operations is the image of the real number lossR: the image of
a real difference, product, finite sum, or a choice between a real and 0 is the difference,
product, sum, or choice of the images.
-/

noncomputable section

open scoped BigOperators

namespace Cert.Mloss

open Idealize.ShloMosaic

/-- A choice between the image of a real and 0 is the image of the choice. -/
theorem ite_coe (p : Prop) [Decidable p] (u : ℝ) :
    (if p then (u : EReal) else 0) = (((if p then u else 0 : ℝ)) : EReal) := by
  split_ifs
  · rfl
  · exact EReal.coe_zero.symm

/-- The arrangement over images of reals is the image of the real loss. -/
theorem kloss_eq (a : ℝ) (xr yr : Fin 681408 → Fin 85 → ℝ) (μ : Fin 681408 → Prop) [DecidablePred μ] :
    ((0 : EReal) + ∑ d : Fin 681408, (if μ d then ∑ c : Fin 85, ((yr d c : EReal) - (xr d c : EReal)) * ((yr d c : EReal) - (xr d c : EReal)) else 0))
      - (a : EReal) * (((0 : EReal) + ∑ d : Fin 681408, (if μ d then ∑ c : Fin 85, (xr d c : EReal) * (xr d c : EReal) else 0)) - ((0 : EReal) + ∑ d : Fin 681408, (xr d 0 : EReal) * (xr d 0 : EReal)))
      = ((lossR a xr yr μ : ℝ) : EReal) := by
  simp only [zero_add, ← EReal.coe_sub, ← EReal.coe_mul, ← coe_sum, ite_coe]
  rfl

/-- The same for two arrays of real entries: the arrangement over their entries is the loss. -/
theorem kloss_cells (x y : SX.Idx → EReal) (hx : IsRealArr x) (hy : IsRealArr y) :
    ((0 : EReal) + ∑ d : Fin 681408, (if hit (cell y d 0) then ∑ c : Fin 85, (cell y d c - cell x d c) * (cell y d c - cell x d c) else 0))
      - alphaE * (((0 : EReal) + ∑ d : Fin 681408, (if hit (cell y d 0) then ∑ c : Fin 85, cell x d c * cell x d c else 0)) - ((0 : EReal) + ∑ d : Fin 681408, cell x d 0 * cell x d 0))
      = loss x y := by
  have hxr : ∀ d c, cell x d c = (((cell x d c).toReal : ℝ) : EReal) := fun d c => eq_coe_toReal (hx _)
  have hyr : ∀ d c, cell y d c = (((cell y d c).toReal : ℝ) : EReal) := fun d c => eq_coe_toReal (hy _)
  have ha : alphaE = ((alphaE.toReal : ℝ) : EReal) := eq_coe_toReal alphaE_real
  have key := kloss_eq alphaE.toReal (fun d c => (cell x d c).toReal) (fun d c => (cell y d c).toReal)
    (fun d => hit (cell y d 0))
  simp only [← hxr, ← hyr, ← ha] at key
  exact key

end Cert.Mloss

end
-- ==== Proof.KTotal.lean ====
import proofs.«125290_g9715216024200_cont_9to1_m_804_10_alg».proof.Proof.Spec
import proofs.«125290_g9715216024200_cont_9to1_m_804_10_alg».proof.Proof.KLossLaw
import proofs.«125290_g9715216024200_cont_9to1_m_804_10_alg».proof.Proof.LibBlockSums
import Idealize.ShloMosaic.Lib.ValueIdx

/-!
The total of the accumulator block is the loss.

The accumulator block has three planes of 512 × 16 cells. Cell (k, r, j) ends at 0 plus the sum,
over the 84 grid points t, of a term that is zero unless block row r at point t is a row
g = 512 t + r of the array (g < 42588); group j of row g is data row d = 16 g + j. Plane 0 collects
the selected rows' Σ_c (y − x)², plane 1 the selected rows' Σ_c x², plane 2 every row's x²(d, 0).
Summing a plane over its cells therefore sums its term once over every data row, and the three
plane totals combine to the loss.
-/

noncomputable section

open scoped BigOperators

namespace Cert.Mloss

open Idealize.ShloMosaic

/-- A plane's total: if its cells collect, point by point, the value of F at the data row they hold,
    the plane's total is the sum of F over all data rows. -/
theorem plane_total (Z : (⟨3, ![3, 512, 16]⟩ : Shape).Idx → EReal) (T : Fin 3 → Fin 84 → Fin 512 → Fin 16 → EReal)
    (hZ : ∀ (k : Fin 3) (r : Fin 512) (j : Fin 16), Z (ValueIdx.ix3 k r j) = (0 : EReal) + ∑ t : Fin 84, T k t r j)
    (k : Fin 3) (F : Fin 681408 → EReal)
    (hF : ∀ (t : Fin 84) (r : Fin 512) (j : Fin 16), T k t r j = if h : 512 * t.val + r.val < 42588 then
        F ⟨16 * (512 * t.val + r.val) + j.val, by omega⟩ else 0) :
    (∑ r : Fin 512, ∑ j : Fin 16, Z (ValueIdx.ix3 k r j)) = ∑ d : Fin 681408, F d := by
  rw [← Cert.BlockSums.sum_blocks F]
  refine Finset.sum_congr rfl fun r _ => Finset.sum_congr rfl fun j _ => ?_
  rw [hZ k r j, zero_add]
  exact Finset.sum_congr rfl fun t _ => hF t r j

/-- The three plane totals combine to the loss. -/
theorem kernel_total (x y : SX.Idx → EReal) (hx : IsRealArr x) (hy : IsRealArr y)
    (Z : (⟨3, ![3, 512, 16]⟩ : Shape).Idx → EReal) (T : Fin 3 → Fin 84 → Fin 512 → Fin 16 → EReal)
    (hZ : ∀ (k : Fin 3) (r : Fin 512) (j : Fin 16), Z (ValueIdx.ix3 k r j) = (0 : EReal) + ∑ t : Fin 84, T k t r j)
    (hT0 : ∀ (t : Fin 84) (r : Fin 512) (j : Fin 16), T 0 t r j = if h : 512 * t.val + r.val < 42588 then
        (if hit (cell y ⟨16 * (512 * t.val + r.val) + j.val, by omega⟩ 0) then ∑ c : Fin 85, (cell y ⟨16 * (512 * t.val + r.val) + j.val, by omega⟩ c - cell x ⟨16 * (512 * t.val + r.val) + j.val, by omega⟩ c) * (cell y ⟨16 * (512 * t.val + r.val) + j.val, by omega⟩ c - cell x ⟨16 * (512 * t.val + r.val) + j.val, by omega⟩ c) else 0) else 0)
    (hT1 : ∀ (t : Fin 84) (r : Fin 512) (j : Fin 16), T 1 t r j = if h : 512 * t.val + r.val < 42588 then
        (if hit (cell y ⟨16 * (512 * t.val + r.val) + j.val, by omega⟩ 0) then ∑ c : Fin 85, cell x ⟨16 * (512 * t.val + r.val) + j.val, by omega⟩ c * cell x ⟨16 * (512 * t.val + r.val) + j.val, by omega⟩ c else 0) else 0)
    (hT2 : ∀ (t : Fin 84) (r : Fin 512) (j : Fin 16), T 2 t r j = if h : 512 * t.val + r.val < 42588 then
        cell x ⟨16 * (512 * t.val + r.val) + j.val, by omega⟩ 0 * cell x ⟨16 * (512 * t.val + r.val) + j.val, by omega⟩ 0 else 0) :
    ((0 : EReal) + ∑ r : Fin 512, ∑ j : Fin 16, Z (ValueIdx.ix3 (0 : Fin 3) r j))
      - alphaE * (((0 : EReal) + ∑ r : Fin 512, ∑ j : Fin 16, Z (ValueIdx.ix3 (1 : Fin 3) r j)) - ((0 : EReal) + ∑ r : Fin 512, ∑ j : Fin 16, Z (ValueIdx.ix3 (2 : Fin 3) r j)))
      = loss x y := by
  rw [plane_total Z T hZ 0
      (fun d => if hit (cell y d 0) then ∑ c : Fin 85, (cell y d c - cell x d c) * (cell y d c - cell x d c) else 0) hT0,
    plane_total Z T hZ 1 (fun d => if hit (cell y d 0) then ∑ c : Fin 85, cell x d c * cell x d c else 0) hT1,
    plane_total Z T hZ 2 (fun d => cell x d 0 * cell x d 0) hT2]
  exact kloss_cells x y hx hy

end Cert.Mloss

end
-- ==== Proof.KernelValue.lean ====
/-
The kernel's result at the exact values is the loss of its two argument arrays.

After the region the host lines sum the accumulator's three slabs and combine them; the accumulator
is 0 plus the 84 points' terms; each term is, on rows inside the array, the masked sum over one data
row's 85 channels; and 84 · 512 block rows of 16 groups re-index the 681408 data rows.
-/
import proofs.«125290_g9715216024200_cont_9to1_m_804_10_alg».proof.Proof.ValueRun
import proofs.«125290_g9715216024200_cont_9to1_m_804_10_alg».proof.Proof.ValueClosed
import proofs.«125290_g9715216024200_cont_9to1_m_804_10_alg».proof.Proof.TermForms
import proofs.«125290_g9715216024200_cont_9to1_m_804_10_alg».proof.Proof.TailValue
import proofs.«125290_g9715216024200_cont_9to1_m_804_10_alg».proof.Proof.KTotal

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

theorem h83 : 83 < cfg0.N := by decide

/-- The result buffer after the host lines that follow the region. -/
theorem kernel_value (c : Dev nD)
    (hx : Cert.Mloss.IsRealArr (m ((c : Thread nD τ).loc main_arg0) : Cert.Mloss.SX.Idx → EReal))
    (hy : Cert.Mloss.IsRealArr (m ((c : Thread nD τ).loc main_arg1) : Cert.Mloss.SX.Idx → EReal)) :
    Pipeline.afterTail₀ cfgs (dats m) 0 (V0 m) [hostOps1] c main_v32
      = fun _ => Cert.Mloss.loss (m ((c : Thread nD τ).loc main_arg0)) (m ((c : Thread nD τ).loc main_arg1)) := by
  rw [Cert.KernelIdeal.Hand.tail_value_last m (dats m) c (accAt m c 83 h83) (after_3 m c ⟨83, h83⟩)]
  funext _
  exact Cert.Mloss.kernel_total _ _ hx hy (accAt m c 83 h83) (fun k t r j => termT m c k ⟨t.val, lt84 t⟩ r j)
    (acc_last m c h83)
    (fun t r j => term_zero m c ⟨t.val, lt84 t⟩ r j)
    (fun t r j => term_one m c ⟨t.val, lt84 t⟩ r j)
    (fun t r j => term_two m c ⟨t.val, lt84 t⟩ r j)

end Cert.KernelIdeal.Val

end
-- ==== Proof.lean ====
/-
Both programs compute the masked squared loss of two [64, 10647, 85] arrays x (predictions) and y
(labels): with a data row selected when its label's channel 0 exceeds 1/2, and a the weight 0.1 as a
binary float,

  Σ_{selected rows} Σ_c (y − x)²  −  a · ( Σ_{selected rows} Σ_c x²  −  Σ_{all rows} x²(·, 0) ).

The reference sums ((y − x)² − a·x²)·mask over every entry and adds a·Σ x²(·, 0). The kernel views the
arrays as [42588, 1360] (sixteen data rows side by side), walks them in 84 blocks of 512 rows — the last
block overhanging the array, its extra rows masked off —, takes each row's per-group sums as products
with a constant 0/1 matrix, accumulates three [512, 16] partial sums over the blocks, and combines their
totals on the host. Over the extended reals the two agree once every input entry is a real number
(the precondition): then all sums are finite, and distributing the weight over the sums is sound.

The three frames: the two kernel programs' by symbolic execution of the body at every grid point, with
nothing said of the buffers' contents; the reference's from its run. The idealization rewrote no
operation, so its ledger is empty.
-/
import proofs.«125290_g9715216024200_cont_9to1_m_804_10_alg».proof.Defs
import proofs.«125290_g9715216024200_cont_9to1_m_804_10_alg».proof.Proof.Gen.Kernel
import proofs.«125290_g9715216024200_cont_9to1_m_804_10_alg».proof.Proof.Gen.KernelIdeal
import proofs.«125290_g9715216024200_cont_9to1_m_804_10_alg».proof.Proof.Gen.ReferenceIdeal
import proofs.«125290_g9715216024200_cont_9to1_m_804_10_alg».proof.Proof.Gen.ReferenceIdeal.Run
import proofs.«125290_g9715216024200_cont_9to1_m_804_10_alg».proof.Proof.Gen.ReferenceIdeal.Read
import proofs.«125290_g9715216024200_cont_9to1_m_804_10_alg».proof.Proof.Gen.Pre_finite_inputs
import proofs.«125290_g9715216024200_cont_9to1_m_804_10_alg».proof.Proof.FrameBits
import proofs.«125290_g9715216024200_cont_9to1_m_804_10_alg».proof.Proof.FrameIdeal
import proofs.«125290_g9715216024200_cont_9to1_m_804_10_alg».proof.Proof.Finite
import proofs.«125290_g9715216024200_cont_9to1_m_804_10_alg».proof.Proof.RefSide
import proofs.«125290_g9715216024200_cont_9to1_m_804_10_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Under the precondition both runs end with the loss of the argument arrays in their result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal : ∀ c : Dev Cert.KernelIdeal.nD,
      Cert.Mloss.IsRealArr (m ((c.tc : Thread Cert.KernelIdeal.nD Cert.KernelIdeal.τ).loc Cert.KernelIdeal.main_arg0) : Cert.Mloss.SX.Idx → EReal)
      ∧ Cert.Mloss.IsRealArr (m ((c.tc : Thread Cert.KernelIdeal.nD Cert.KernelIdeal.τ).loc Cert.KernelIdeal.main_arg1) : Cert.Mloss.SX.Idx → EReal) :=
    fun c => @Cert.Mloss.isReal_of_pre Cert.Pre_finite_inputs.Gen.facts _ _ (hpre c)
  refine ⟨fun c _ => Cert.Mloss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Val.run_main m ρ)
    · exact ((h c).2 Cert.KernelIdeal.main_v32 (Pipeline.mem_restRefs_of Cert.KernelIdeal.main_v32 (by decide) (by decide))).trans
        (Cert.KernelIdeal.Val.kernel_value m c (hreal c).1 (hreal c).2)
    · exact ((h c).2 Cert.KernelIdeal.main_arg0 (Pipeline.mem_restRefs_of Cert.KernelIdeal.main_arg0 (by decide) (by decide))).trans
        (Cert.KernelIdeal.Gen.W_main_arg0 m (Cert.KernelIdeal.Val.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Val.dats m) c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v21_eq, (hagree c).1, (hagree c).2]
    exact Cert.ReferenceIdeal.RefValue.ref_loss _ _ (hreal c).1 (hreal c).2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
